-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x768 : Shape := ⟨3, ![4, 128, 768]⟩
abbrev S256x768 : Shape := ⟨2, ![256, 768]⟩
abbrev S256 : Shape := ⟨1, ![256]⟩
abbrev S100000x256 : Shape := ⟨2, ![100000, 256]⟩
abbrev S_ : Shape := ⟨0, ![]⟩

class Facts : Prop where
  bcast_S_S4x128x768 : S_.BroadcastsInDim S4x128x768 (![] : Fin 0 → Fin S4x128x768.rank)
  reducesTo_S4x128x768_S_d0_1_2 : S4x128x768.ReducesTo [0, 1, 2] S_
  h_S_ : 0 < S_.numel
  bcast_S_S256x768 : S_.BroadcastsInDim S256x768 (![] : Fin 0 → Fin S256x768.rank)
  reducesTo_S256x768_S_d0_1 : S256x768.ReducesTo [0, 1] S_
  bcast_S_S256 : S_.BroadcastsInDim S256 (![] : Fin 0 → Fin S256.rank)
  reducesTo_S256_S_d0 : S256.ReducesTo [0] S_
  bcast_S_S100000x256 : S_.BroadcastsInDim S100000x256 (![] : Fin 0 → Fin S100000x256.rank)
  reducesTo_S100000x256_S_d0_1 : S100000x256.ReducesTo [0, 1] S_

variable [Facts]

def fn_part1 {F : FTy → Type} [FloatOps F] (main_v13 : IVec S_ 1) (main_v16 : IVec S100000x256 1) : IVec S_ 1 :=
  let main_c_5 : IVec S_ 1 := constantI S_ 1 1#1
  let main_v17 : IVec S_ 1 := (fun x v => Host.reduce IntOp.andi x v reducesTo_S100000x256_S_d0_1 h_S_) main_v16 main_c_5
  let main_v18 : IVec S_ 1 := andi main_v13 main_v17
  main_v18

def fn {F : FTy → Type} [FloatOps F] (main_arg0 : FVec F S4x128x768 .f32) (main_arg1 : FVec F S256x768 .f32) (main_arg2 : FVec F S256 .f32) (main_arg3 : FVec F S100000x256 .f32) : IVec S_ 1 :=
  let main_v0 : FVec F S4x128x768 .f32 := Host.absf main_arg0
  let main_cst : FVec F S_ .f32 := constant S_ .f32 0x7F800000#32
  let main_v1 : FVec F S4x128x768 .f32 := broadcastInDim S4x128x768 ![] bcast_S_S4x128x768 main_cst
  let main_v2 : IVec S4x128x768 1 := cmpf .olt main_v0 main_v1
  let main_c : IVec S_ 1 := constantI S_ 1 1#1
  let main_v3 : IVec S_ 1 := (fun x v => Host.reduce IntOp.andi x v reducesTo_S4x128x768_S_d0_1_2 h_S_) main_v2 main_c
  let main_v4 : FVec F S256x768 .f32 := Host.absf main_arg1
  let main_cst_0 : FVec F S_ .f32 := constant S_ .f32 0x7F800000#32
  let main_v5 : FVec F S256x768 .f32 := broadcastInDim S256x768 ![] bcast_S_S256x768 main_cst_0
  let main_v6 : IVec S256x768 1 := cmpf .olt main_v4 main_v5
  let main_c_1 : IVec S_ 1 := constantI S_ 1 1#1
  let main_v7 : IVec S_ 1 := (fun x v => Host.reduce IntOp.andi x v reducesTo_S256x768_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S100000x256 .f32 := Host.absf main_arg3
  let main_cst_4 : FVec F S_ .f32 := constant S_ .f32 0x7F800000#32
  let main_v15 : FVec F S100000x256 .f32 := broadcastInDim S100000x256 ![] bcast_S_S100000x256 main_cst_4
  let main_v16 : IVec S100000x256 1 := cmpf .olt main_v14 main_v15
  fn_part1 (F := F) main_v13 main_v16
-- ==== Kernel.lean ====
abbrev S4x128x768 : Shape := ⟨3, ![4, 128, 768]⟩
abbrev S256x768 : Shape := ⟨2, ![256, 768]⟩
abbrev S256 : Shape := ⟨1, ![256]⟩
abbrev S100000x256 : Shape := ⟨2, ![100000, 256]⟩
abbrev S512x768 : Shape := ⟨2, ![512, 768]⟩
abbrev S1x256 : Shape := ⟨2, ![1, 256]⟩
abbrev S512x256 : Shape := ⟨2, ![512, 256]⟩
abbrev S128x768 : Shape := ⟨2, ![128, 768]⟩
abbrev S128x256 : Shape := ⟨2, ![128, 256]⟩
abbrev S128 : Shape := ⟨1, ![128]⟩
abbrev S128x1 : Shape := ⟨2, ![128, 1]⟩
abbrev S512x100000 : Shape := ⟨2, ![512, 100000]⟩
abbrev S4096x256 : Shape := ⟨2, ![4096, 256]⟩
abbrev S512x4096 : Shape := ⟨2, ![512, 4096]⟩
abbrev S4096 : Shape := ⟨1, ![4096]⟩
abbrev S4096x1 : Shape := ⟨2, ![4096, 1]⟩
abbrev S4x128x100000 : Shape := ⟨3, ![4, 128, 100000]⟩

abbrev nBuf : Space → Nat
  | .hbm => 9
  | .vmem => 11
  | .smem => 0
  | _ => 0

abbrev bufTy : (tb : Table) → Fin (tcTables nBuf tb) → BufTy
  | .hbm, ⟨0, _⟩ => ⟨S4x128x768, .f32⟩
  | .hbm, ⟨1, _⟩ => ⟨S256x768, .f32⟩
  | .hbm, ⟨2, _⟩ => ⟨S256, .f32⟩
  | .hbm, ⟨3, _⟩ => ⟨S100000x256, .f32⟩
  | .hbm, ⟨4, _⟩ => ⟨S512x768, .f32⟩
  | .hbm, ⟨5, _⟩ => ⟨S1x256, .f32⟩
  | .hbm, ⟨6, _⟩ => ⟨S512x256, .f32⟩
  | .hbm, ⟨7, _⟩ => ⟨S512x100000, .f32⟩
  | .hbm, ⟨8, _⟩ => ⟨S4x128x100000, .f32⟩
  | .local _ .vmem, ⟨0, _⟩ => ⟨S128x768, .f32⟩
  | .local _ .vmem, ⟨1, _⟩ => ⟨S128x768, .f32⟩
  | .local _ .vmem, ⟨2, _⟩ => ⟨S256x768, .f32⟩
  | .local _ .vmem, ⟨3, _⟩ => ⟨S1x256, .f32⟩
  | .local _ .vmem, ⟨4, _⟩ => ⟨S128x256, .f32⟩
  | .local _ .vmem, ⟨5, _⟩ => ⟨S128x256, .f32⟩
  | .local _ .vmem, ⟨6, _⟩ => ⟨S512x256, .f32⟩
  | .local _ .vmem, ⟨7, _⟩ => ⟨S4096x256, .f32⟩
  | .local _ .vmem, ⟨8, _⟩ => ⟨S4096x256, .f32⟩
  | .local _ .vmem, ⟨9, _⟩ => ⟨S512x4096, .f32⟩
  | .local _ .vmem, ⟨10, _⟩ => ⟨S512x4096, .f32⟩
  | _, _ => ⟨S4x128x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S512x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S4096x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S4x128x768_S512x768 : S4x128x768.ShapeCasts S512x768
  shapeCasts_S256_S1x256 : S256.ShapeCasts S1x256
  inb_S128x768_S128x768_0_0 : ∀ a, (![0, 0] : Fin 2 → Nat) a + S128x768.size a ≤ S128x768.size a
  h_S128x768 : 0 < S128x768.numel
  shapeCasts_S128x768_S128x768 : S128x768.ShapeCasts S128x768
  bitsLt_bf16_f32 : FTy.bits .bf16 < FTy.bits .f32
  inb_S256x768_S256x768_0_0 : ∀ a, (![0, 0] : Fin 2 → Nat) a + S256x768.size a ≤ S256x768.size a
  h_S256x768 : 0 < S256x768.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S128x256 : S1x256.Broadcasts S128x256
  reduces_S128x256_S128 : S128x256.Reduces [1] S128
  shapeCasts_S128_S128x1 : S128.ShapeCasts S128x1
  broadcasts_S128x1_S128x256 : S128x1.Broadcasts S128x256
  inb_S128x256_S128x256_0_0 : ∀ a, (![0, 0] : Fin 2 → Nat) a + S128x256.size a ≤ S128x256.size a
  h_S128x256 : 0 < S128x256.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S4096x256_S4096x256_0_0 : ∀ a, (![0, 0] : Fin 2 → Nat) a + S4096x256.size a ≤ S4096x256.size a
  h_S4096x256 : 0 < S4096x256.numel
  iota_S4096x256_d0_w32 : S4096x256.Iotas .tc 32 [0]
  reduces_S4096x256_S4096 : S4096x256.Reduces [1] S4096
  shapeCasts_S4096_S4096x1 : S4096.ShapeCasts S4096x1
  broadcasts_S4096x1_S4096x256 : S4096x1.Broadcasts S4096x256
  inb_S512x4096_S512x4096_0_0 : ∀ a, (![0, 0] : Fin 2 → Nat) a + S512x4096.size a ≤ S512x4096.size a
  h_S512x4096 : 0 < S512x4096.numel
  shapeCasts_S512x100000_S4x128x100000 : S512x100000.ShapeCasts S4x128x100000
  dot_S128x768_S256x768_S128x256_1_1_0_0_n_n_wf : DotDims.WF S128x768 S256x768 S128x256 [1] [1] [0] [0] [] []
  dot_S512x256_S4096x256_S512x4096_1_1_0_0_n_n_wf : DotDims.WF S512x256 S4096x256 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x768.size a ≤ S512x768.size a
  hwx0_0 : ∀ i : grid0.Coords, EltTy.bits .f32 = 32 ∨ (Rect.block (s := S512x768) S128x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x768.size a ≤ S256x768.size a
  hwx0_1 : ∀ i : grid0.Coords, EltTy.bits .f32 = 32 ∨ (Rect.block (s := S256x768) S256x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S512x256.size a
  hwx0_3 : ∀ i : grid0.Coords, EltTy.bits .f32 = 32 ∨ (Rect.block (s := S512x256) S128x256.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S512x256.size a
  hwx1_0 : ∀ i : grid1.Coords, EltTy.bits .f32 = 32 ∨ (Rect.block (s := S512x256) S512x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S4096x256.size a < S100000x256.size a
  hwx1_1 : ∀ i : grid1.Coords, EltTy.bits .f32 = 32 ∨ (Rect.unit (s := S100000x256) (fun a => cc1_transform_1 i a * S4096x256.size a) (fun a => (Pipeline.Clip.of (cc1_transform_1 i a) (S4096x256.size a) (S100000x256.size a)).extent (S4096x256.size a)) fun a => Pipeline.Clip.inb (Pipeline.Clip.ok_of (hstart1_1 i a))).WholeWords (EltTy.packing .f32)
  hwxs1_1 : ∀ i : grid1.Coords, EltTy.bits .f32 = 32 ∨ (Rect.unit (s := S4096x256) (fun _ => 0) (fun a => (Pipeline.Clip.of (cc1_transform_1 i a) (S4096x256.size a) (S100000x256.size a)).extent (S4096x256.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S512x4096.size a < S512x100000.size a
  hwx1_2 : ∀ i : grid1.Coords, EltTy.bits .f32 = 32 ∨ (Rect.unit (s := S512x100000) (fun a => cc1_transform_2 i a * S512x4096.size a) (fun a => (Pipeline.Clip.of (cc1_transform_2 i a) (S512x4096.size a) (S512x100000.size a)).extent (S512x4096.size a)) fun a => Pipeline.Clip.inb (Pipeline.Clip.ok_of (hstart1_2 i a))).WholeWords (EltTy.packing .f32)
  hwxs1_2 : ∀ i : grid1.Coords, EltTy.bits .f32 = 32 ∨ (Rect.unit (s := S512x4096) (fun _ => 0) (fun a => (Pipeline.Clip.of (cc1_transform_2 i a) (S512x4096.size a) (S512x100000.size a)).extent (S512x4096.size a)) fun a => (Nat.zero_add _).trans_le (Pipeline.Clip.extent_le (Pipeline.Clip.ok_of (hstart1_2 i a)))).WholeWords (EltTy.packing .f32)

variable [Facts₀]

def dot_S128x768_S256x768_S128x256_1_1_0_0_n_n : DotDims S128x768 S256x768 S128x256 where
  lhsContracting := [1]
  rhsContracting := [1]
  lhsNonContracting := [0]
  rhsNonContracting := [0]
  lhsBatch := []
  rhsBatch := []
  wf := dot_S128x768_S256x768_S128x256_1_1_0_0_n_n_wf
def dot_S512x256_S4096x256_S512x4096_1_1_0_0_n_n : DotDims S512x256 S4096x256 S512x4096 where
  lhsContracting := [1]
  rhsContracting := [1]
  lhsNonContracting := [0]
  rhsNonContracting := [0]
  lhsBatch := []
  rhsBatch := []
  wf := dot_S512x256_S4096x256_S512x4096_1_1_0_0_n_n_wf

abbrev win0_0 : Pipeline.Window sig grid0 :=
  Pipeline.Window.ofSpec (Memref.whole main_v0) S128x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S512x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpecClip (Memref.whole main_arg3) S4096x256.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v3) S512x4096.size cc1_transform_2 reads1_2 true false 2 stage1_2 sem1_2
    hrank1 hreads1_2 hstart1_2 nbuf1_2 (Memref.isWhole_whole _) hwx1_2 hwxs1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x128x768 : Shape := ⟨3, ![4, 128, 768]⟩
abbrev S256x768 : Shape := ⟨2, ![256, 768]⟩
abbrev S256 : Shape := ⟨1, ![256]⟩
abbrev S100000x256 : Shape := ⟨2, ![100000, 256]⟩
abbrev S4x128x256 : Shape := ⟨3, ![4, 128, 256]⟩
abbrev S1x1x256 : Shape := ⟨3, ![1, 1, 256]⟩
abbrev S_ : Shape := ⟨0, ![]⟩
abbrev S4x128 : Shape := ⟨2, ![4, 128]⟩
abbrev S4x128x1 : Shape := ⟨3, ![4, 128, 1]⟩
abbrev S100000 : Shape := ⟨1, ![100000]⟩
abbrev S100000x1 : Shape := ⟨2, ![100000, 1]⟩
abbrev S4x128x100000 : Shape := ⟨3, ![4, 128, 100000]⟩

abbrev nBuf : Space → Nat
  | .hbm => 30
  | .vmem => 0
  | .smem => 0
  | _ => 0

abbrev bufTy : (tb : Table) → Fin (tcTables nBuf tb) → BufTy
  | .hbm, ⟨0, _⟩ => ⟨S4x128x768, .f32⟩
  | .hbm, ⟨1, _⟩ => ⟨S256x768, .f32⟩
  | .hbm, ⟨2, _⟩ => ⟨S256, .f32⟩
  | .hbm, ⟨3, _⟩ => ⟨S100000x256, .f32⟩
  | .hbm, ⟨4, _⟩ => ⟨S4x128x256, .f32⟩
  | .hbm, ⟨5, _⟩ => ⟨S1x1x256, .f32⟩
  | .hbm, ⟨6, _⟩ => ⟨S4x128x256, .f32⟩
  | .hbm, ⟨7, _⟩ => ⟨S4x128x256, .f32⟩
  | .hbm, ⟨8, _⟩ => ⟨S4x128x256, .f32⟩
  | .hbm, ⟨9, _⟩ => ⟨S4x128x256, .f32⟩
  | .hbm, ⟨10, _⟩ => ⟨S_, .f32⟩
  | .hbm, ⟨11, _⟩ => ⟨S4x128, .f32⟩
  | .hbm, ⟨12, _⟩ => ⟨S4x128x1, .f32⟩
  | .hbm, ⟨13, _⟩ => ⟨S4x128x1, .f32⟩
  | .hbm, ⟨14, _⟩ => ⟨S_, .f32⟩
  | .hbm, ⟨15, _⟩ => ⟨S4x128x1, .f32⟩
  | .hbm, ⟨16, _⟩ => ⟨S4x128x1, .f32⟩
  | .hbm, ⟨17, _⟩ => ⟨S4x128x256, .f32⟩
  | .hbm, ⟨18, _⟩ => ⟨S4x128x256, .f32⟩
  | .hbm, ⟨19, _⟩ => ⟨S100000x256, .f32⟩
  | .hbm, ⟨20, _⟩ => ⟨S_, .f32⟩
  | .hbm, ⟨21, _⟩ => ⟨S100000, .f32⟩
  | .hbm, ⟨22, _⟩ => ⟨S100000x1, .f32⟩
  | .hbm, ⟨23, _⟩ => ⟨S100000x1, .f32⟩
  | .hbm, ⟨24, _⟩ => ⟨S_, .f32⟩
  | .hbm, ⟨25, _⟩ => ⟨S100000x1, .f32⟩
  | .hbm, ⟨26, _⟩ => ⟨S100000x1, .f32⟩
  | .hbm, ⟨27, _⟩ => ⟨S100000x256, .f32⟩
  | .hbm, ⟨28, _⟩ => ⟨S100000x256, .f32⟩
  | .hbm, ⟨29, _⟩ => ⟨S4x128x100000, .f32⟩
  | _, _ => ⟨S4x128x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call1_v0 : Ref sig .tc := ⟨.hbm, 19, rfl⟩
abbrev main_call1_cst : Ref sig .tc := ⟨.hbm, 20, rfl⟩
abbrev main_call1_v1 : Ref sig .tc := ⟨.hbm, 21, rfl⟩
abbrev main_call1_v2 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S4x128x256_0_1_2 : S1x1x256.BroadcastsInDim S4x128x256 (![0, 1, 2] : Fin 3 → Fin S4x128x256.rank)
  reducesTo_S4x128x256_S4x128_d2 : S4x128x256.ReducesTo [2] S4x128
  h_S_ : 0 < S_.numel
  bcast_S4x128_S4x128x1_0_1 : S4x128.BroadcastsInDim S4x128x1 (![0, 1] : Fin 2 → Fin S4x128x1.rank)
  bcast_S_S4x128x1 : S_.BroadcastsInDim S4x128x1 (![] : Fin 0 → Fin S4x128x1.rank)
  bcast_S4x128x1_S4x128x256_0_1_2 : S4x128x1.BroadcastsInDim S4x128x256 (![0, 1, 2] : Fin 3 → Fin S4x128x256.rank)
  reducesTo_S100000x256_S100000_d1 : S100000x256.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x256_0_1 : S100000x1.BroadcastsInDim S100000x256 (![0, 1] : Fin 2 → Fin S100000x256.rank)
  dot_S4x128x768_S256x768_S4x128x256_2_1_01_0_n_n_wf : DotDims.WF S4x128x768 S256x768 S4x128x256 [2] [1] [0, 1] [0] [] []
  dot_S4x128x256_S100000x256_S4x128x100000_2_1_01_0_n_n_wf : DotDims.WF S4x128x256 S100000x256 S4x128x100000 [2] [1] [0, 1] [0] [] []

variable [Facts₀]

def dot_S4x128x768_S256x768_S4x128x256_2_1_01_0_n_n : DotDims S4x128x768 S256x768 S4x128x256 where
  lhsContracting := [2]
  rhsContracting := [1]
  lhsNonContracting := [0, 1]
  rhsNonContracting := [0]
  lhsBatch := []
  rhsBatch := []
  wf := dot_S4x128x768_S256x768_S4x128x256_2_1_01_0_n_n_wf
def dot_S4x128x256_S100000x256_S4x128x100000_2_1_01_0_n_n : DotDims S4x128x256 S100000x256 S4x128x100000 where
  lhsContracting := [2]
  rhsContracting := [1]
  lhsNonContracting := [0, 1]
  rhsNonContracting := [0]
  lhsBatch := []
  rhsBatch := []
  wf := dot_S4x128x256_S100000x256_S4x128x100000_2_1_01_0_n_n_wf

class Facts : Prop extends Facts₀ where

variable [Facts]
-- ==== Proof.Kernel.Region0.lean ====
/-
  The projection kernel (the first of the program's two kernel regions) at every grid point, for any float instance.
  Its grid has four points; point t stages rows 128·t … 128·t+127 of the flattened input (a [128, 768] block), the whole
  weight matrix [256, 768] and the bias row [1, 256] (both staged once: their block index never moves), and writes
  back a [128, 256] block of the result. The body loads the three input buffers whole and stores ONE value over the
  whole output buffer: the named payload of the body's arithmetic applied to the three loaded blocks. So after the
  body each input buffer still holds its block and the output buffer holds that payload; this module states this as
  the region's proof data and proves the body's triple and the per-point obligation, at any contents `V` of the
  unscoped buffers when the region is entered.
-/
import proofs.«133783_j66142496358617_2_alg».proof.Proof.Gen.Kernel.Launch
import proofs.«133783_j66142496358617_2_alg».proof.Proof.Gen.Kernel.Skeleton
import proofs.«133783_j66142496358617_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The block of window `w`'s array at grid point `t`, the array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window whose body leaves its block in place holds its block at every point, fetched there or not
    (unfetched, the block index has not moved): the three inputs of the projection kernel. -/
theorem found0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem found0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem found0_2 {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- The body's four accesses: each buffer whole (offset zero, the buffer's own size). -/
abbrev rx0 : Rect S128x768 := Rect.unit (s := S128x768) ![0, 0] S128x768.size inb_S128x768_S128x768_0_0
abbrev rw0 : Rect S256x768 := Rect.unit (s := S256x768) ![0, 0] S256x768.size inb_S256x768_S256x768_0_0
abbrev rb0 : Rect S1x256 := Rect.unit (s := S1x256) ![0, 0] S1x256.size inb_S1x256_S1x256_0_0
abbrev ro0 : Rect S128x256 := Rect.unit (s := S128x256) ![0, 0] S128x256.size inb_S128x256_S128x256_0_0

/-- What the body leaves in the output buffer, from the three input blocks: its one store, over the whole buffer, of
    the body's arithmetic on the three whole loads. -/
def projOut (x0 : Vec F S128x768 .f32) (x1 : Vec F S256x768 .f32) (x2 : Vec F S1x256 .f32) : Vec F S128x256 .f32 :=
  View.canon [⟨ro0, k0_pay1 (View.ld x0 rx0) (View.ld x1 rw0) (View.ld x2 rb0)⟩]

/-- The one store covers the output buffer. -/
theorem projCover (p0 : Vec F S128x256 .f32) (y : S128x256.Idx) :
    ∃ pc ∈ ([⟨ro0, p0⟩] : List (View.Piece (Elt F) S128x256 .f32)), y ∈ pc.1.set :=
  View.cover_of_tiled [⟨ro0, p0⟩] S128x256.size (by rfl) y

set_option maxHeartbeats 1000000 in
/-- The body on whole staging memrefs, the inputs' at contents `x0 x1 x2` and the output's at anything, runs to the
    continuation with the inputs' as they were and the output's at `projOut x0 x1 x2`. -/
theorem projTriple (c : Dev nD) (E : Set ℕ) (i : grid0.Coords)
    (arg1 : Memref sig .tc .vmem S128x768 .f32) (harg1 : arg1.IsWhole) (arg2 : Memref sig .tc .vmem S256x768 .f32) (harg2 : arg2.IsWhole)
    (arg3 : Memref sig .tc .vmem S1x256 .f32) (harg3 : arg3.IsWhole) (arg4 : Memref sig .tc .vmem S128x256 .f32) (harg4 : arg4.IsWhole)
    (x0 : Vec F S128x768 .f32) (x1 : Vec F S256x768 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (projOut x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (projCover _)

/-- The region's proof data on core `c`: the arrays as the region finds them; after the body at point `t` each input's
    buffer at its block and the output's at `projOut` of the three; the invariant is the scoped buffers of the other
    region and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => projOut (blk0 V c 0 t) (blk0 V c 1 t) (blk0 V c 2 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = blk0 V c 2 t := by dsimp only [dat0]
theorem dat0_after3 (c : Dev nD) (t : Fin cfg0.N) :
    (dat0 V c).after 3 t = projOut (blk0 V c 0 t) (blk0 V c 1 t) (blk0 V c 2 t) := by dsimp only [dat0]

theorem dat0_before0 (c : Dev nD) (t : Fin cfg0.N) (d) : (dat0 V c).before 0 t d = blk0 V c 0 t :=
  found0_0 V (dat0 V c) (dat0_A V c 0) (dat0_after0 V c) t d
theorem dat0_before1 (c : Dev nD) (t : Fin cfg0.N) (d) : (dat0 V c).before 1 t d = blk0 V c 1 t :=
  found0_1 V (dat0 V c) (dat0_A V c 1) (dat0_after1 V c) t d
theorem dat0_before2 (c : Dev nD) (t : Fin cfg0.N) (d) : (dat0 V c).before 2 t d = blk0 V c 2 t :=
  found0_2 V (dat0 V c) (dat0_A V c 2) (dat0_after2 V c) t d

/-- What the body is called with at point `t`, the windows one by one, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem body0_at (c : Dev nD) (t : Fin cfg0.N) :
    pre0 V c t ⊢ wp frame (wpE (defs₀ (F := F)) Variants.none c none) Set.univ (bodyAt0 t) (fun _ => post0 V c t) := by
  unfold pre0 post0 bodyAt0
  simp only [dat0_before0, dat0_before1, dat0_before2]
  rw [show (dat0 V c).Φ t.succ = (dat0 V c).Φ t.castSucc from rfl,
    show (dat0 V c).owesAt () t.succ = (dat0 V c).owesAt () t.castSucc from rfl,
    dat0_after0, dat0_after1, dat0_after2, dat0_after3]
  iintro ⟨HΦ, Ho, ⟨%d0, H0⟩, ⟨%d1, H1⟩, ⟨%d2, H2⟩, ⟨%d3, H3⟩⟩
  iapply (projTriple c Set.univ (grid0.coords t) _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the projection kernel's pipeline, at every point. -/
theorem obligation0 (c : Dev nD) : BodyObligation (dat0 (F := F) V c) (defs₀ (F := F)) Variants.none () Set.univ := fun t => by
  rw [bigSep_W0, bigSep_W0]
  exact body0_at V c t

end

end Cert.Kernel.Hand

end
-- ==== Proof.Kernel.Mask.lean ====
/-
  The row mask of the similarity kernel and the ragged last block. The entity table has 100000 rows and is staged
  in blocks of 4096 rows, so the last of the 25 blocks overhangs the table: only its first 1696 rows are fetched,
  and the staging buffer's remaining rows hold words nothing names. The kernel body guards against them: at grid
  point i it compares i · 4096 + r with 100000 at every row r of the block and replaces the rows that fail by zeros
  before anything else reads the block. This module shows that the comparison passes exactly on the rows the fetch
  moves, so the masked block does not depend on what the unfetched rows hold; the same arithmetic says which
  columns of an output block lie inside the result array.
-/
import proofs.«133783_j66142496358617_2_alg».proof.Proof.Gen.Kernel.Launch
import proofs.«133783_j66142496358617_2_alg».proof.Proof.Gen.Kernel.Skeleton
import Idealize.ShloMosaic.Lib.Pipeline.Value
import Idealize.ShloMosaic.Lib.ValueIdx

noncomputable section

namespace Cert.Kernel.Hand

open Cert.Kernel Cert.Kernel.Gen
open Idealize.ShloMosaic Idealize.ShloMosaic.TcCoe Idealize.ShloMosaic.ValueIdx
open Idealize.ShloMosaic.Pipeline (Window)

/-- With x below 25 and y below 4096 the 32-bit word x · 4096 + y does not wrap and is non-negative, so its signed
    comparison with 100000 is the comparison of natural numbers. -/
theorem slt_small (x y : Nat) (hx : x < 25) (hy : y < 4096) :
    ((BitVec.ofNat 32 x * 4096#32 + BitVec.ofNat 32 y).slt 100000#32) = decide (x * 4096 + y < 100000) := by
  have hv : (BitVec.ofNat 32 x * 4096#32 + BitVec.ofNat 32 y).toNat = x * 4096 + y := by
    simp only [BitVec.toNat_add, BitVec.toNat_mul, BitVec.toNat_ofNat]
    norm_num
    omega
  have hi : (BitVec.ofNat 32 x * 4096#32 + BitVec.ofNat 32 y).toInt = ((x * 4096 + y : Nat) : Int) := by
    rw [BitVec.toInt_eq_toNat_cond, hv]
    norm_num
    omega
  have hc : (100000#32 : BitVec 32).toInt = 100000 := by decide
  unfold BitVec.slt
  rw [hi, hc, decide_eq_decide]
  omega

/-- The body's comparison at grid point `i`: at index (r, k), whether i · 4096 + r is below 100000 (signed, 32 bits). -/
abbrev rowMask (i : grid1.Coords) : IVec S4096x256 1 :=
  cmpi .slt (addi (broadcast S4096x256 (Scalar.muli (BitVec.ofNat 32 (i 0).val) 4096#32)) (iota .tc S4096x256 32 [0] iota_S4096x256_d0_w32))
    (broadcast S4096x256 100000#32)

theorem coord_lt (i : grid1.Coords) : (i 0).val < 25 := (i 0).isLt

theorem rowMask_eq_one_iff (i : grid1.Coords) (j : S4096x256.Idx) :
    rowMask i j = 1#1 ↔ (i 0).val * 4096 + (j 0).val < 100000 := by
  have hi := coord_lt i
  have hj : (j 0).val < 4096 := (j 0).isLt
  unfold rowMask cmpi addi
  rw [iota_single_apply]
  show IntOp.cmpi CmpIPredicate.slt (IntOp.addi (Scalar.muli (BitVec.ofNat 32 (i 0).val) 4096#32) (BitVec.ofNat 32 (j 0).val)) (100000#32) = 1#1 ↔ _
  unfold IntOp.cmpi IntOp.addi Scalar.muli IntOp.muli
  dsimp only
  rw [slt_small _ _ hi hj]
  by_cases h : (i 0).val * 4096 + (j 0).val < 100000
  · rw [decide_eq_true h]; exact ⟨fun _ => h, fun _ => rfl⟩
  · rw [decide_eq_false h]; exact ⟨fun h' => absurd h' (by decide), fun h' => absurd h' h⟩

/-- The block index of the entity window at grid point `i` is `i` on the row axis, 0 on the other. -/
theorem entIndex0 (i : grid1.Coords) : win1_1.indexMap i 0 = (i 0).val := by
  have hi := coord_lt i
  show (BitVec.ofNat 32 (i 0).val).toNat = _
  rw [BitVec.toNat_ofNat]; exact Nat.mod_eq_of_lt (by omega)

/-- The rows of the entity block the fetch at `i` moves are those below 100000 in the table. -/
theorem entMoved_iff (i : grid1.Coords) (j : S4096x256.Idx) :
    win1_1.moved i j = true ↔ (i 0).val * 4096 + (j 0).val < 100000 := by
  have hi := coord_lt i
  have hj0 : (j 0).val < 4096 := (j 0).isLt
  have hj1 : (j 1).val < 256 := (j 1).isLt
  rw [Window.moved_iff]
  have hx0 : win1_1.xsize i 0 = (Pipeline.Clip.of (i 0).val 4096 100000).extent 4096 := by
    show (Pipeline.Clip.of (win1_1.indexMap i 0) 4096 100000).extent 4096 = _
    rw [entIndex0]
  have hx1 : win1_1.xsize i 1 = 256 := by
    show (Pipeline.Clip.of 0 256 256).extent 256 = 256
    decide
  constructor
  · intro h
    have h0 := h 0
    rw [hx0] at h0
    unfold Pipeline.Clip.of at h0
    split at h0
    · rename_i hle; omega
    · exact (by simpa [Pipeline.Clip.extent] using h0 : (j 0).val < 100000 - (i 0).val * 4096) |> fun h' => by omega
  · intro h a
    match a with
    | ⟨0, _⟩ =>
      show (j 0).val < win1_1.xsize i 0
      rw [hx0]; unfold Pipeline.Clip.of; split
      · exact hj0
      · show (j 0).val < 100000 - (i 0).val * 4096; omega
    | ⟨1, _⟩ =>
      show (j 1).val < win1_1.xsize i 1
      rw [hx1]; exact hj1

/-- Where the comparison passes, a block filled out past the table's end reads the fetched rows, whatever fills it out. -/
theorem entFill_of_mask {α : Type} (i : grid1.Coords) (d d' : S4096x256.Idx → α) (g : (win1_1.xblock i).Idx → α)
    (j : S4096x256.Idx) (h : rowMask i j = 1#1) : win1_1.fill i d g j = win1_1.fill i d' g j := by
  have hm : win1_1.moved i j = true := (entMoved_iff i j).mpr ((rowMask_eq_one_iff i j).mp h)
  unfold Window.fill; rw [dif_pos hm, dif_pos hm]

/-- So the masked block is one function of the fetched rows. -/
theorem select_entFill {α : Type} (i : grid1.Coords) (d d' : S4096x256.Idx → α) (g : (win1_1.xblock i).Idx → α)
    (z : S4096x256.Idx → α) :
    select (rowMask i) (win1_1.fill i d g) z = select (rowMask i) (win1_1.fill i d' g) z := by
  funext j
  rw [select_apply, select_apply]
  unfold Scalar.select
  split
  · rename_i h; exact entFill_of_mask i d d' g j h
  · rfl

end Cert.Kernel.Hand

end
-- ==== Proof.Kernel.Region1.lean ====
/-
  The similarity kernel (the second kernel region) at every grid point, for any float instance. Its grid has 25
  points; point t stages the whole [512, 256] matrix of normalized queries (staged once), rows 4096·t … of the entity
  table (a [4096, 256] block; the last block overhangs the table and only its rows inside the table are fetched) and
  writes back a [512, 4096] block of columns of the result (the last block cut at the result's last column). The body
  loads the two input buffers whole and stores one value over the whole output buffer: the named payload of its
  arithmetic on the two loads, which masks the rows past the table's end before it reads them. So after the body the
  query buffer holds the queries, the entity buffer what was fetched filled out with whatever lay past the table's
  end, and the output buffer the payload of the two, which by the mask is the payload of the queries and the fetched
  rows filled out with ANY words: the proof data names it with zeros there.
-/
import proofs.«133783_j66142496358617_2_alg».proof.Proof.Kernel.Mask
import proofs.«133783_j66142496358617_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The part inside its array of window `w`'s block at grid point `t`, the array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window (uncut, its block index fixed) holds the whole query matrix at every point. -/
theorem found1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The words the proof data puts past the table's end: zeros (nothing reads them). -/
abbrev zpad : S4096x256.Idx → Elt F .f32 := fun _ => Scalar.ofBits .f32 0#32

/-- The entity buffer at point `t` with `d` past the table's end. -/
abbrev entBuf (c : Dev nD) (t : Fin cfg1.N) (d : S4096x256.Idx → Elt F .f32) : S4096x256.Idx → Elt F .f32 :=
  win1_1.fill (grid1.coords t) d (blk1 V c 1 t)

abbrev rq1 : Rect S512x256 := Rect.unit (s := S512x256) ![0, 0] S512x256.size inb_S512x256_S512x256_0_0
abbrev re1 : Rect S4096x256 := Rect.unit (s := S4096x256) ![0, 0] S4096x256.size inb_S4096x256_S4096x256_0_0
abbrev ro1 : Rect S512x4096 := Rect.unit (s := S512x4096) ![0, 0] S512x4096.size inb_S512x4096_S512x4096_0_0

/-- What the body leaves in the output buffer from the two input buffers: its one store over the whole buffer. -/
def simOut (i : grid1.Coords) (x0 : Vec F S512x256 .f32) (x1 : Vec F S4096x256 .f32) : Vec F S512x4096 .f32 :=
  View.canon [⟨ro1, k1_pay1 i (View.ld x0 rq1) (View.ld x1 re1)⟩]

theorem zeros2 : (![0, 0] : Fin 2 → Nat) = fun _ => 0 := funext fun a => by fin_cases a <;> rfl

/-- It is the payload of the two buffers' contents. -/
theorem simOut_eq (i : grid1.Coords) (x0 : Vec F S512x256 .f32) (x1 : Vec F S4096x256 .f32) :
    simOut i x0 x1 = k1_pay1 i x0 x1 := by
  unfold simOut
  rw [View.canon_unit_zero zeros2, View.ld_unit_zero (S := S512x256) zeros2, View.ld_unit_zero (S := S4096x256) zeros2]

/-- The payload sees the entity buffer only through the mask: whatever lies past the table's end is not read. -/
theorem simOut_pad (i : grid1.Coords) (x0 : Vec F S512x256 .f32) (d d' : S4096x256.Idx → Elt F .f32)
    (g : (win1_1.xblock i).Idx → Elt F .f32) :
    simOut i x0 (win1_1.fill i d g) = simOut i x0 (win1_1.fill i d' g) := by
  rw [simOut_eq, simOut_eq]
  unfold k1_pay1
  dsimp only
  rw [select_entFill i d d' g]

theorem simCover (p0 : Vec F S512x4096 .f32) (y : S512x4096.Idx) :
    ∃ pc ∈ ([⟨ro1, p0⟩] : List (View.Piece (Elt F) S512x4096 .f32)), y ∈ pc.1.set :=
  ⟨_, List.mem_singleton_self _, View.mem_set_unit_zero zeros2 inb_S512x4096_S512x4096_0_0 y⟩

set_option maxHeartbeats 1000000 in
/-- The body on whole staging memrefs, the inputs' at contents `x0 x1` and the output's at anything, runs to the
    continuation with the inputs' as they were and the output's at `simOut i x0 x1`. -/
theorem simTriple (c : Dev nD) (E : Set ℕ) (i : grid1.Coords)
    (arg1 : Memref sig .tc .vmem S512x256 .f32) (harg1 : arg1.IsWhole) (arg2 : Memref sig .tc .vmem S4096x256 .f32) (harg2 : arg2.IsWhole)
    (arg3 : Memref sig .tc .vmem S512x4096 .f32) (harg3 : arg3.IsWhole)
    (x0 : Vec F S512x256 .f32) (x1 : Vec F S4096x256 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (simOut i x0 x1)) -∗ K ⟨⟩))
      ⊢ wp frame (wpE (defs₀ (F := F)) Variants.none c none) E (cc1__sim_kernel i arg1 harg1 arg2 harg2 arg3 harg3) K := by
  simp only [cc1__sim_kernel_eq_skeleton]; unfold cc1__sim_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (simCover _)

/-- The region's proof data on core `c`. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => entBuf V c t zpad
    | ⟨2, _⟩ => simOut (grid1.coords t) (blk1 V c 0 t) (entBuf V c t zpad)
  Φ _ := Pipeline.ΦA spec1 c
  q _ := fullShare
  owed _ := 0

theorem dat1_A (c : Dev nD) (w : Fin cfg1.W) : (dat1 V c).A w = V c (Pipeline.arrRef spec1 w) := by
  dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = entBuf V c t zpad := by dsimp only [dat1]
theorem dat1_after2 (c : Dev nD) (t : Fin cfg1.N) :
    (dat1 V c).after 2 t = simOut (grid1.coords t) (blk1 V c 0 t) (entBuf V c t zpad) := by dsimp only [dat1]

theorem dat1_before0 (c : Dev nD) (t : Fin cfg1.N) (d) : (dat1 V c).before 0 t d = blk1 V c 0 t :=
  found1_0 V (dat1 V c) (dat1_A V c 0) (dat1_after0 V c) t d

/-- The entity window is fetched at every point: its buffer holds the fetched rows, `d` past the table's end. -/
theorem dat1_before1 (c : Dev nD) (t : Fin cfg1.N) (d) : (dat1 V c).before 1 t d = entBuf V c t d := by
  rw [(dat1 V c).before_fetched 1 t (fetch1_1 t) d]
  unfold Dat.fetched Dat.blockOf entBuf blk1
  rw [dat1_A]

/-- What the body is called with at point `t`, the windows one by one, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns: the two windows whose blocks may overhang are stated on the part their transfers move. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ (∃ d, owns (c : Thread nD τ) (st1_1 t) fullShare
        ((cfg1.win 1).fill (cfg1.grid.coords t) d ((cfg1.win 1).cut (cfg1.grid.coords t) ((dat1 V c).after 1 t))))
    ∗ (∃ d, owns (c : Thread nD τ) (st1_2 t) fullShare
        ((cfg1.win 2).fill (cfg1.grid.coords t) d ((cfg1.win 2).cut (cfg1.grid.coords t) ((dat1 V c).after 2 t)))))

theorem body1_at (c : Dev nD) (t : Fin cfg1.N) :
    pre1 V c t ⊢ wp frame (wpE (defs₀ (F := F)) Variants.none c none) Set.univ (bodyAt1 t) (fun _ => post1 V c t) := by
  unfold pre1 post1 bodyAt1
  simp only [dat1_before0, dat1_before1]
  rw [show (dat1 V c).Φ t.succ = (dat1 V c).Φ t.castSucc from rfl,
    show (dat1 V c).owesAt () t.succ = (dat1 V c).owesAt () t.castSucc from rfl,
    dat1_after0, dat1_after1, dat1_after2]
  iintro ⟨HΦ, Ho, ⟨%d0, H0⟩, ⟨%d1, H1⟩, ⟨%d2, H2⟩⟩
  iapply (simTriple c Set.univ (grid1.coords t) _ _ _ _ _ _ (blk1 V c 0 t) (entBuf V c t d1) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  have h1 : (cfg1.win 1).fill (cfg1.grid.coords t) d1 ((cfg1.win 1).cut (cfg1.grid.coords t) (entBuf V c t zpad)) = entBuf V c t d1 := by
    show win1_1.fill (grid1.coords t) d1 (win1_1.cut (grid1.coords t) (win1_1.fill (grid1.coords t) zpad (blk1 V c 1 t))) = _
    rw [Window.cut_fill]
  have h2 : (cfg1.win 2).fill (cfg1.grid.coords t) (simOut (grid1.coords t) (blk1 V c 0 t) (entBuf V c t d1))
      ((cfg1.win 2).cut (cfg1.grid.coords t) (simOut (grid1.coords t) (blk1 V c 0 t) (entBuf V c t zpad)))
      = simOut (grid1.coords t) (blk1 V c 0 t) (entBuf V c t d1) := by
    rw [show simOut (grid1.coords t) (blk1 V c 0 t) (entBuf V c t zpad) = simOut (grid1.coords t) (blk1 V c 0 t) (entBuf V c t d1)
      from simOut_pad (grid1.coords t) _ zpad d1 _]
    exact Window.fill_cut _ _ _
  isplitl [H1]
  · iexists d1; rw [h1]; iexact H1
  · iexists _; rw [h2]; iexact H2

/-- The body obligation of the similarity kernel's pipeline, at every point, in the form for windows that may overhang. -/
theorem obligation1 (c : Dev nD) : BodyObligationLoose (dat1 (F := F) V c) (defs₀ (F := F)) Variants.none () Set.univ := fun t => by
  rw [bigSep_W1, bigSep_W1]
  exact body1_at V c t

end

end Cert.Kernel.Hand

end
-- ==== Proof.Kernel.Run.lean ====
/-
  The whole program as a run of four segments, for any float instance: two host reshapes (the input flattened to
  [512, 768], the bias laid as a row [1, 256]), the projection kernel's region, the similarity kernel's region, and
  the host reshape of the [512, 100000] result to [4, 128, 100000]. Between two segments a core holds every
  unscoped buffer at known contents: the launch memory, then the host operations applied, then after each region
  its arrays at what the region's write-backs leave and every other buffer as the region found it. The run: from any
  memory with zero counters every weakly fair execution of the program terminates, nothing faulting, with every
  unscoped buffer at the last of these contents. No segment writes an argument array, so each ends as launched.
-/
import proofs.«133783_j66142496358617_2_alg».proof.Proof.Kernel.Region0
import proofs.«133783_j66142496358617_2_alg».proof.Proof.Kernel.Region1
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The unscoped buffers' contents at the five boundaries -/

/-- At launch. -/
abbrev W0 : Dev nD → Valuation τ sig (Elt F) := fun c b => m ((c : Dev nD), b)
/-- After the two leading reshapes: what the projection region finds. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the projection region: its arrays at what its write-backs leave, the rest as found. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After the similarity region. -/
def W3 (c : Dev nD) : Valuation τ sig (Elt F) :=
  Pipeline.withArrays spec1 c (W2 m c) fun w => (dat1 (V2 m) c).arrAt w cfg1.N
abbrev V3 : (c : Dev nD) → (b : Ref sig .tc) → Buf (Elt F) ((c : Thread nD τ).loc b) := fun c b => W3 m c b
/-- After the trailing reshape: the end. -/
abbrev W4 : Dev nD → Valuation τ sig (Elt F) := fun c => StableHlo.after hostOps2 (W3 m c)

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb

theorem exit0_arr (c : Dev nD) (w : Fin cfg0.W) : (dat0 (V1 m) c).arrAt w cfg0.N = V2 m c (Pipeline.arrRef spec0 w) :=
  (W2_arr m c w).symm
theorem exit0_rest (c : Dev nD) : ∀ b, b ∉ Finset.univ.image (Pipeline.arrRef spec0) → V2 m c b = V1 m c b :=
  fun b hb => W2_of_ne m c b fun w e => hb (Finset.mem_image.mpr ⟨w, Finset.mem_univ _, e⟩)
theorem exit1_arr (c : Dev nD) (w : Fin cfg1.W) : (dat1 (V2 m) c).arrAt w cfg1.N = V3 m c (Pipeline.arrRef spec1 w) :=
  (W3_arr m c w).symm
theorem exit1_rest (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The proof data of both pipelines and what rides beside the buffers -/

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c

abbrev 𝒱₀ : Variants := Variants.none
abbrev L : GSem nD τ sig → Finset Unit := fun _ => ∅
abbrev lv : GSem nD τ sig → Unit → ℕ := fun _ _ => 0

/-- Beside the buffers every segment passes on the generator register at some state and the core owing nothing. -/
abbrev R (c : Dev nD) : sProp 𝕄 := iprop((∃ r, prngReg c r) ∗ ∃ W, owes (c : Thread nD τ) (0 : CellTallies nD τ sig Unit) W)

abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem lead_fresh : (hostOps0 : List (HloOp τ sig (Elt F))).Forall fun op => op.fresh = ∅ := by
  simp only [List.Forall]; repeat' constructor
theorem tail_fresh : (hostOps2 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The two regions as segments -/

set_option backward.isDefEq.respectTransparency.types false in
/-- The projection region: entered with every unscoped buffer at `W1`, left with them at `W2`. Its four arrays are
    split out of the unscoped buffers at entry and put back at the exit contents; the generator register goes through
    the invariant; nothing is owed; the kernel has no semaphore of its own. -/
def regProj : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The similarity region: entered with every unscoped buffer at `W2`, left with them at `W3`; otherwise as the first. -/
def regSim : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := obligation1 (V2 m) c
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its segments, and the run -/

abbrev segments : List (Pipeline.Seg (pcfgs (F := F)) adm (pdats m) () defs₀ 𝒱₀ L lv) :=
  [ .host (hostSeg hostOps0 hostOps0_sub lead_fresh (W0 m)),
    .region (regProj m),
    .region (regSim m),
    .host (hostSeg hostOps2 hostOps2_sub tail_fresh (W3 m)) ]

theorem main_is_segments (c : Dev nD) : main (F := F) c = Pipeline.Seg.run (segments m) := (main_chain c).trans (by chain_rfl)

set_option backward.isDefEq.respectTransparency.types false in
/-- THE RUN. From any memory `m` with zero counters every weakly fair execution terminates, nothing faulting, and the
    final memory holds every unscoped buffer at `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segments m)
    (fun c Q => by rw [main_is_segments m c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W4 m c))
    (hch := ⟨fun _ => .rfl, fun _ => .rfl, fun _ => .rfl, fun _ => .rfl, fun c => sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨Hh, HSI⟩
      unfold StableHlo.held
      imodintro
      iapply (pointsTo_read_all (Pipeline.ucRefs τ sig) (fun b => (((c : Thread nD τ)).1, b)) (W4 m c) s')
      isplitl [Hh] <;> iassumption)
    (hQ := fun s h => h)

end Cert.Kernel.Hand

end
-- ==== Proof.Kernel.Frame.lean ====
/-
  No segment of the program writes an argument array: the host reshapes write their own results, the projection
  region writes only its result (it reads the weight matrix through an input window), the similarity region only its
  result (it reads the entity table through an input window). So at the end of the run each argument array holds its
  launch contents, and the program's result buffer holds the last boundary's contents: for any float instance.
-/
import proofs.«133783_j66142496358617_2_alg».proof.Proof.Kernel.Run
import proofs.«133783_j66142496358617_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The leading reshapes write `main_v0` and `main_v1` only; the trailing one `main_v4` only. -/
theorem W1_of (c : Dev nD) (r : Ref sig .tc) (h : r ∉ hostOps0_W) : W1 m c r = W0 m c r :=
  StableHlo.after_of_writes_sub hostOps0 _ hostOps0_writes h
theorem W4_of (c : Dev nD) (r : Ref sig .tc) (h : r ∉ hostOps2_W) : W4 m c r = W3 m c r :=
  StableHlo.after_of_writes_sub hostOps2 _ hostOps2_writes h

theorem end_arg0 (c : Dev nD) : W4 m c (Proc.devRef .tc main_arg0) = m ((c : Thread nD τ).loc main_arg0) :=
  calc W4 m c (Proc.devRef .tc main_arg0)
    _ = W3 m c (Proc.devRef .tc main_arg0) := W4_of m c main_arg0 (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := W1_of m c main_arg0 (by decide)
    _ = m ((c : Thread nD τ).loc main_arg0) := rfl

theorem end_arg1 (c : Dev nD) : W4 m c (Proc.devRef .tc main_arg1) = m ((c : Thread nD τ).loc main_arg1) :=
  calc W4 m c (Proc.devRef .tc main_arg1)
    _ = W3 m c (Proc.devRef .tc main_arg1) := W4_of m c main_arg1 (by decide)
    _ = W2 m c (Proc.devRef .tc main_arg1) := W3_of_ne m c main_arg1 (by decide)
    _ = W1 m c (Proc.devRef .tc main_arg1) := (W2_arr m c 1).trans (((dat0 (V1 m) c).arrAt_in 1 rfl _).trans (dat0_A (V1 m) c 1))
    _ = W0 m c (Proc.devRef .tc main_arg1) := W1_of m c main_arg1 (by decide)
    _ = m ((c : Thread nD τ).loc main_arg1) := rfl

theorem end_arg2 (c : Dev nD) : W4 m c (Proc.devRef .tc main_arg2) = m ((c : Thread nD τ).loc main_arg2) :=
  calc W4 m c (Proc.devRef .tc main_arg2)
    _ = W3 m c (Proc.devRef .tc main_arg2) := W4_of m c main_arg2 (by decide)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := W1_of m c main_arg2 (by decide)
    _ = m ((c : Thread nD τ).loc main_arg2) := rfl

/-- The entity table as the similarity region finds it, and as every later boundary has it: as launched. -/
theorem W2_arg3 (c : Dev nD) : W2 m c (Proc.devRef .tc main_arg3) = m ((c : Thread nD τ).loc main_arg3) :=
  calc W2 m c (Proc.devRef .tc main_arg3)
    _ = W1 m c (Proc.devRef .tc main_arg3) := W2_of_ne m c main_arg3 (by decide)
    _ = W0 m c (Proc.devRef .tc main_arg3) := W1_of m c main_arg3 (by decide)
    _ = m ((c : Thread nD τ).loc main_arg3) := rfl

theorem end_arg3 (c : Dev nD) : W4 m c (Proc.devRef .tc main_arg3) = m ((c : Thread nD τ).loc main_arg3) :=
  calc W4 m c (Proc.devRef .tc main_arg3)
    _ = W3 m c (Proc.devRef .tc main_arg3) := W4_of m c main_arg3 (by decide)
    _ = W2 m c (Proc.devRef .tc main_arg3) := (W3_arr m c 1).trans (((dat1 (V2 m) c).arrAt_in 1 rfl _).trans (dat1_A (V2 m) c 1))
    _ = m ((c : Thread nD τ).loc main_arg3) := W2_arg3 m c

/-- THE RUN read at the result and the arguments: the result buffer ends at the last boundary's contents, each
    argument array as launched. -/
theorem run_result : θ_run defs (onTc (τ := τ) (main (F := F))) ⟨m, fun _ => 0, ρ⟩ (fun r => ∀ c : Dev nD,
      r.2.mem ((c.tc : Thread nD τ).loc main_v4) = W4 m c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v4 (by decide)),
     (h c _ (mem_uc main_arg0 (by decide))).trans (end_arg0 m c),
     (h c _ (mem_uc main_arg1 (by decide))).trans (end_arg1 m c),
     (h c _ (mem_uc main_arg2 (by decide))).trans (end_arg2 m c),
     (h c _ (mem_uc main_arg3 (by decide))).trans (end_arg3 m c)⟩) (run_all m ρ)

/-- THE FRAME: the program runs to the end, faults nowhere, and leaves its argument arrays as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_result m ρ)

end Cert.Kernel.Hand

end
-- ==== Proof.KernelIdeal.Region0.lean ====
/-
  The projection kernel (the first of the program's two kernel regions) at every grid point, for any float instance.
  Its grid has four points; point t stages rows 128·t … 128·t+127 of the flattened input (a [128, 768] block), the whole
  weight matrix [256, 768] and the bias row [1, 256] (both staged once: their block index never moves), and writes
  back a [128, 256] block of the result. The body loads the three input buffers whole and stores ONE value over the
  whole output buffer: the named payload of the body's arithmetic applied to the three loaded blocks. So after the
  body each input buffer still holds its block and the output buffer holds that payload; this module states this as
  the region's proof data and proves the body's triple and the per-point obligation, at any contents `V` of the
  unscoped buffers when the region is entered.
-/
import proofs.«133783_j66142496358617_2_alg».proof.Proof.Gen.KernelIdeal.Launch
import proofs.«133783_j66142496358617_2_alg».proof.Proof.Gen.KernelIdeal.Skeleton
import proofs.«133783_j66142496358617_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The block of window `w`'s array at grid point `t`, the array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window whose body leaves its block in place holds its block at every point, fetched there or not
    (unfetched, the block index has not moved): the three inputs of the projection kernel. -/
theorem found0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem found0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem found0_2 {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- The body's four accesses: each buffer whole (offset zero, the buffer's own size). -/
abbrev rx0 : Rect S128x768 := Rect.unit (s := S128x768) ![0, 0] S128x768.size inb_S128x768_S128x768_0_0
abbrev rw0 : Rect S256x768 := Rect.unit (s := S256x768) ![0, 0] S256x768.size inb_S256x768_S256x768_0_0
abbrev rb0 : Rect S1x256 := Rect.unit (s := S1x256) ![0, 0] S1x256.size inb_S1x256_S1x256_0_0
abbrev ro0 : Rect S128x256 := Rect.unit (s := S128x256) ![0, 0] S128x256.size inb_S128x256_S128x256_0_0

/-- What the body leaves in the output buffer, from the three input blocks: its one store, over the whole buffer, of
    the body's arithmetic on the three whole loads. -/
def projOut (x0 : Vec F S128x768 .f32) (x1 : Vec F S256x768 .f32) (x2 : Vec F S1x256 .f32) : Vec F S128x256 .f32 :=
  View.canon [⟨ro0, k0_pay1 (View.ld x0 rx0) (View.ld x1 rw0) (View.ld x2 rb0)⟩]

/-- The one store covers the output buffer. -/
theorem projCover (p0 : Vec F S128x256 .f32) (y : S128x256.Idx) :
    ∃ pc ∈ ([⟨ro0, p0⟩] : List (View.Piece (Elt F) S128x256 .f32)), y ∈ pc.1.set :=
  View.cover_of_tiled [⟨ro0, p0⟩] S128x256.size (by rfl) y

set_option maxHeartbeats 1000000 in
/-- The body on whole staging memrefs, the inputs' at contents `x0 x1 x2` and the output's at anything, runs to the
    continuation with the inputs' as they were and the output's at `projOut x0 x1 x2`. -/
theorem projTriple (c : Dev nD) (E : Set ℕ) (i : grid0.Coords)
    (arg1 : Memref sig .tc .vmem S128x768 .f32) (harg1 : arg1.IsWhole) (arg2 : Memref sig .tc .vmem S256x768 .f32) (harg2 : arg2.IsWhole)
    (arg3 : Memref sig .tc .vmem S1x256 .f32) (harg3 : arg3.IsWhole) (arg4 : Memref sig .tc .vmem S128x256 .f32) (harg4 : arg4.IsWhole)
    (x0 : Vec F S128x768 .f32) (x1 : Vec F S256x768 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (projOut x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (projCover _)

/-- The region's proof data on core `c`: the arrays as the region finds them; after the body at point `t` each input's
    buffer at its block and the output's at `projOut` of the three; the invariant is the scoped buffers of the other
    region and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => projOut (blk0 V c 0 t) (blk0 V c 1 t) (blk0 V c 2 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = blk0 V c 2 t := by dsimp only [dat0]
theorem dat0_after3 (c : Dev nD) (t : Fin cfg0.N) :
    (dat0 V c).after 3 t = projOut (blk0 V c 0 t) (blk0 V c 1 t) (blk0 V c 2 t) := by dsimp only [dat0]

theorem dat0_before0 (c : Dev nD) (t : Fin cfg0.N) (d) : (dat0 V c).before 0 t d = blk0 V c 0 t :=
  found0_0 V (dat0 V c) (dat0_A V c 0) (dat0_after0 V c) t d
theorem dat0_before1 (c : Dev nD) (t : Fin cfg0.N) (d) : (dat0 V c).before 1 t d = blk0 V c 1 t :=
  found0_1 V (dat0 V c) (dat0_A V c 1) (dat0_after1 V c) t d
theorem dat0_before2 (c : Dev nD) (t : Fin cfg0.N) (d) : (dat0 V c).before 2 t d = blk0 V c 2 t :=
  found0_2 V (dat0 V c) (dat0_A V c 2) (dat0_after2 V c) t d

/-- What the body is called with at point `t`, the windows one by one, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem body0_at (c : Dev nD) (t : Fin cfg0.N) :
    pre0 V c t ⊢ wp frame (wpE (defs₀ (F := F)) Variants.none c none) Set.univ (bodyAt0 t) (fun _ => post0 V c t) := by
  unfold pre0 post0 bodyAt0
  simp only [dat0_before0, dat0_before1, dat0_before2]
  rw [show (dat0 V c).Φ t.succ = (dat0 V c).Φ t.castSucc from rfl,
    show (dat0 V c).owesAt () t.succ = (dat0 V c).owesAt () t.castSucc from rfl,
    dat0_after0, dat0_after1, dat0_after2, dat0_after3]
  iintro ⟨HΦ, Ho, ⟨%d0, H0⟩, ⟨%d1, H1⟩, ⟨%d2, H2⟩, ⟨%d3, H3⟩⟩
  iapply (projTriple c Set.univ (grid0.coords t) _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the projection kernel's pipeline, at every point. -/
theorem obligation0 (c : Dev nD) : BodyObligation (dat0 (F := F) V c) (defs₀ (F := F)) Variants.none () Set.univ := fun t => by
  rw [bigSep_W0, bigSep_W0]
  exact body0_at V c t

end

end Cert.KernelIdeal.Hand

end
-- ==== Proof.KernelIdeal.Mask.lean ====
/-
  The row mask of the similarity kernel and the ragged last block. The entity table has 100000 rows and is staged
  in blocks of 4096 rows, so the last of the 25 blocks overhangs the table: only its first 1696 rows are fetched,
  and the staging buffer's remaining rows hold words nothing names. The kernel body guards against them: at grid
  point i it compares i · 4096 + r with 100000 at every row r of the block and replaces the rows that fail by zeros
  before anything else reads the block. This module shows that the comparison passes exactly on the rows the fetch
  moves, so the masked block does not depend on what the unfetched rows hold; the same arithmetic says which
  columns of an output block lie inside the result array.
-/
import proofs.«133783_j66142496358617_2_alg».proof.Proof.Gen.KernelIdeal.Launch
import proofs.«133783_j66142496358617_2_alg».proof.Proof.Gen.KernelIdeal.Skeleton
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Window)

/-- With x below 25 and y below 4096 the 32-bit word x · 4096 + y does not wrap and is non-negative, so its signed
    comparison with 100000 is the comparison of natural numbers. -/
theorem slt_small (x y : Nat) (hx : x < 25) (hy : y < 4096) :
    ((BitVec.ofNat 32 x * 4096#32 + BitVec.ofNat 32 y).slt 100000#32) = decide (x * 4096 + y < 100000) := by
  have hv : (BitVec.ofNat 32 x * 4096#32 + BitVec.ofNat 32 y).toNat = x * 4096 + y := by
    simp only [BitVec.toNat_add, BitVec.toNat_mul, BitVec.toNat_ofNat]
    norm_num
    omega
  have hi : (BitVec.ofNat 32 x * 4096#32 + BitVec.ofNat 32 y).toInt = ((x * 4096 + y : Nat) : Int) := by
    rw [BitVec.toInt_eq_toNat_cond, hv]
    norm_num
    omega
  have hc : (100000#32 : BitVec 32).toInt = 100000 := by decide
  unfold BitVec.slt
  rw [hi, hc, decide_eq_decide]
  omega

/-- The body's comparison at grid point `i`: at index (r, k), whether i · 4096 + r is below 100000 (signed, 32 bits). -/
abbrev rowMask (i : grid1.Coords) : IVec S4096x256 1 :=
  cmpi .slt (addi (broadcast S4096x256 (Scalar.muli (BitVec.ofNat 32 (i 0).val) 4096#32)) (iota .tc S4096x256 32 [0] iota_S4096x256_d0_w32))
    (broadcast S4096x256 100000#32)

theorem coord_lt (i : grid1.Coords) : (i 0).val < 25 := (i 0).isLt

theorem rowMask_eq_one_iff (i : grid1.Coords) (j : S4096x256.Idx) :
    rowMask i j = 1#1 ↔ (i 0).val * 4096 + (j 0).val < 100000 := by
  have hi := coord_lt i
  have hj : (j 0).val < 4096 := (j 0).isLt
  unfold rowMask cmpi addi
  rw [iota_single_apply]
  show IntOp.cmpi CmpIPredicate.slt (IntOp.addi (Scalar.muli (BitVec.ofNat 32 (i 0).val) 4096#32) (BitVec.ofNat 32 (j 0).val)) (100000#32) = 1#1 ↔ _
  unfold IntOp.cmpi IntOp.addi Scalar.muli IntOp.muli
  dsimp only
  rw [slt_small _ _ hi hj]
  by_cases h : (i 0).val * 4096 + (j 0).val < 100000
  · rw [decide_eq_true h]; exact ⟨fun _ => h, fun _ => rfl⟩
  · rw [decide_eq_false h]; exact ⟨fun h' => absurd h' (by decide), fun h' => absurd h' h⟩

/-- The block index of the entity window at grid point `i` is `i` on the row axis, 0 on the other. -/
theorem entIndex0 (i : grid1.Coords) : win1_1.indexMap i 0 = (i 0).val := by
  have hi := coord_lt i
  show (BitVec.ofNat 32 (i 0).val).toNat = _
  rw [BitVec.toNat_ofNat]; exact Nat.mod_eq_of_lt (by omega)

/-- The rows of the entity block the fetch at `i` moves are those below 100000 in the table. -/
theorem entMoved_iff (i : grid1.Coords) (j : S4096x256.Idx) :
    win1_1.moved i j = true ↔ (i 0).val * 4096 + (j 0).val < 100000 := by
  have hi := coord_lt i
  have hj0 : (j 0).val < 4096 := (j 0).isLt
  have hj1 : (j 1).val < 256 := (j 1).isLt
  rw [Window.moved_iff]
  have hx0 : win1_1.xsize i 0 = (Pipeline.Clip.of (i 0).val 4096 100000).extent 4096 := by
    show (Pipeline.Clip.of (win1_1.indexMap i 0) 4096 100000).extent 4096 = _
    rw [entIndex0]
  have hx1 : win1_1.xsize i 1 = 256 := by
    show (Pipeline.Clip.of 0 256 256).extent 256 = 256
    decide
  constructor
  · intro h
    have h0 := h 0
    rw [hx0] at h0
    unfold Pipeline.Clip.of at h0
    split at h0
    · rename_i hle; omega
    · exact (by simpa [Pipeline.Clip.extent] using h0 : (j 0).val < 100000 - (i 0).val * 4096) |> fun h' => by omega
  · intro h a
    match a with
    | ⟨0, _⟩ =>
      show (j 0).val < win1_1.xsize i 0
      rw [hx0]; unfold Pipeline.Clip.of; split
      · exact hj0
      · show (j 0).val < 100000 - (i 0).val * 4096; omega
    | ⟨1, _⟩ =>
      show (j 1).val < win1_1.xsize i 1
      rw [hx1]; exact hj1

/-- Where the comparison passes, a block filled out past the table's end reads the fetched rows, whatever fills it out. -/
theorem entFill_of_mask {α : Type} (i : grid1.Coords) (d d' : S4096x256.Idx → α) (g : (win1_1.xblock i).Idx → α)
    (j : S4096x256.Idx) (h : rowMask i j = 1#1) : win1_1.fill i d g j = win1_1.fill i d' g j := by
  have hm : win1_1.moved i j = true := (entMoved_iff i j).mpr ((rowMask_eq_one_iff i j).mp h)
  unfold Window.fill; rw [dif_pos hm, dif_pos hm]

/-- So the masked block is one function of the fetched rows. -/
theorem select_entFill {α : Type} (i : grid1.Coords) (d d' : S4096x256.Idx → α) (g : (win1_1.xblock i).Idx → α)
    (z : S4096x256.Idx → α) :
    select (rowMask i) (win1_1.fill i d g) z = select (rowMask i) (win1_1.fill i d' g) z := by
  funext j
  rw [select_apply, select_apply]
  unfold Scalar.select
  split
  · rename_i h; exact entFill_of_mask i d d' g j h
  · rfl

end Cert.KernelIdeal.Hand

end
-- ==== Proof.KernelIdeal.Region1.lean ====
/-
  The similarity kernel (the second kernel region) at every grid point, for any float instance. Its grid has 25
  points; point t stages the whole [512, 256] matrix of normalized queries (staged once), rows 4096·t … of the entity
  table (a [4096, 256] block; the last block overhangs the table and only its rows inside the table are fetched) and
  writes back a [512, 4096] block of columns of the result (the last block cut at the result's last column). The body
  loads the two input buffers whole and stores one value over the whole output buffer: the named payload of its
  arithmetic on the two loads, which masks the rows past the table's end before it reads them. So after the body the
  query buffer holds the queries, the entity buffer what was fetched filled out with whatever lay past the table's
  end, and the output buffer the payload of the two, which by the mask is the payload of the queries and the fetched
  rows filled out with ANY words: the proof data names it with zeros there.
-/
import proofs.«133783_j66142496358617_2_alg».proof.Proof.KernelIdeal.Mask
import proofs.«133783_j66142496358617_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The part inside its array of window `w`'s block at grid point `t`, the array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window (uncut, its block index fixed) holds the whole query matrix at every point. -/
theorem found1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The words the proof data puts past the table's end: zeros (nothing reads them). -/
abbrev zpad : S4096x256.Idx → Elt F .f32 := fun _ => Scalar.ofBits .f32 0#32

/-- The entity buffer at point `t` with `d` past the table's end. -/
abbrev entBuf (c : Dev nD) (t : Fin cfg1.N) (d : S4096x256.Idx → Elt F .f32) : S4096x256.Idx → Elt F .f32 :=
  win1_1.fill (grid1.coords t) d (blk1 V c 1 t)

abbrev rq1 : Rect S512x256 := Rect.unit (s := S512x256) ![0, 0] S512x256.size inb_S512x256_S512x256_0_0
abbrev re1 : Rect S4096x256 := Rect.unit (s := S4096x256) ![0, 0] S4096x256.size inb_S4096x256_S4096x256_0_0
abbrev ro1 : Rect S512x4096 := Rect.unit (s := S512x4096) ![0, 0] S512x4096.size inb_S512x4096_S512x4096_0_0

/-- What the body leaves in the output buffer from the two input buffers: its one store over the whole buffer. -/
def simOut (i : grid1.Coords) (x0 : Vec F S512x256 .f32) (x1 : Vec F S4096x256 .f32) : Vec F S512x4096 .f32 :=
  View.canon [⟨ro1, k1_pay1 i (View.ld x0 rq1) (View.ld x1 re1)⟩]

theorem zeros2 : (![0, 0] : Fin 2 → Nat) = fun _ => 0 := funext fun a => by fin_cases a <;> rfl

/-- It is the payload of the two buffers' contents. -/
theorem simOut_eq (i : grid1.Coords) (x0 : Vec F S512x256 .f32) (x1 : Vec F S4096x256 .f32) :
    simOut i x0 x1 = k1_pay1 i x0 x1 := by
  unfold simOut
  rw [View.canon_unit_zero zeros2, View.ld_unit_zero (S := S512x256) zeros2, View.ld_unit_zero (S := S4096x256) zeros2]

/-- The payload sees the entity buffer only through the mask: whatever lies past the table's end is not read. -/
theorem simOut_pad (i : grid1.Coords) (x0 : Vec F S512x256 .f32) (d d' : S4096x256.Idx → Elt F .f32)
    (g : (win1_1.xblock i).Idx → Elt F .f32) :
    simOut i x0 (win1_1.fill i d g) = simOut i x0 (win1_1.fill i d' g) := by
  rw [simOut_eq, simOut_eq]
  unfold k1_pay1
  dsimp only
  rw [select_entFill i d d' g]

theorem simCover (p0 : Vec F S512x4096 .f32) (y : S512x4096.Idx) :
    ∃ pc ∈ ([⟨ro1, p0⟩] : List (View.Piece (Elt F) S512x4096 .f32)), y ∈ pc.1.set :=
  ⟨_, List.mem_singleton_self _, View.mem_set_unit_zero zeros2 inb_S512x4096_S512x4096_0_0 y⟩

set_option maxHeartbeats 1000000 in
/-- The body on whole staging memrefs, the inputs' at contents `x0 x1` and the output's at anything, runs to the
    continuation with the inputs' as they were and the output's at `simOut i x0 x1`. -/
theorem simTriple (c : Dev nD) (E : Set ℕ) (i : grid1.Coords)
    (arg1 : Memref sig .tc .vmem S512x256 .f32) (harg1 : arg1.IsWhole) (arg2 : Memref sig .tc .vmem S4096x256 .f32) (harg2 : arg2.IsWhole)
    (arg3 : Memref sig .tc .vmem S512x4096 .f32) (harg3 : arg3.IsWhole)
    (x0 : Vec F S512x256 .f32) (x1 : Vec F S4096x256 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (simOut i x0 x1)) -∗ K ⟨⟩))
      ⊢ wp frame (wpE (defs₀ (F := F)) Variants.none c none) E (cc1__sim_kernel i arg1 harg1 arg2 harg2 arg3 harg3) K := by
  simp only [cc1__sim_kernel_eq_skeleton]; unfold cc1__sim_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (simCover _)

/-- The region's proof data on core `c`. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => entBuf V c t zpad
    | ⟨2, _⟩ => simOut (grid1.coords t) (blk1 V c 0 t) (entBuf V c t zpad)
  Φ _ := Pipeline.ΦA spec1 c
  q _ := fullShare
  owed _ := 0

theorem dat1_A (c : Dev nD) (w : Fin cfg1.W) : (dat1 V c).A w = V c (Pipeline.arrRef spec1 w) := by
  dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = entBuf V c t zpad := by dsimp only [dat1]
theorem dat1_after2 (c : Dev nD) (t : Fin cfg1.N) :
    (dat1 V c).after 2 t = simOut (grid1.coords t) (blk1 V c 0 t) (entBuf V c t zpad) := by dsimp only [dat1]

theorem dat1_before0 (c : Dev nD) (t : Fin cfg1.N) (d) : (dat1 V c).before 0 t d = blk1 V c 0 t :=
  found1_0 V (dat1 V c) (dat1_A V c 0) (dat1_after0 V c) t d

/-- The entity window is fetched at every point: its buffer holds the fetched rows, `d` past the table's end. -/
theorem dat1_before1 (c : Dev nD) (t : Fin cfg1.N) (d) : (dat1 V c).before 1 t d = entBuf V c t d := by
  rw [(dat1 V c).before_fetched 1 t (fetch1_1 t) d]
  unfold Dat.fetched Dat.blockOf entBuf blk1
  rw [dat1_A]

/-- What the body is called with at point `t`, the windows one by one, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns: the two windows whose blocks may overhang are stated on the part their transfers move. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ (∃ d, owns (c : Thread nD τ) (st1_1 t) fullShare
        ((cfg1.win 1).fill (cfg1.grid.coords t) d ((cfg1.win 1).cut (cfg1.grid.coords t) ((dat1 V c).after 1 t))))
    ∗ (∃ d, owns (c : Thread nD τ) (st1_2 t) fullShare
        ((cfg1.win 2).fill (cfg1.grid.coords t) d ((cfg1.win 2).cut (cfg1.grid.coords t) ((dat1 V c).after 2 t)))))

theorem body1_at (c : Dev nD) (t : Fin cfg1.N) :
    pre1 V c t ⊢ wp frame (wpE (defs₀ (F := F)) Variants.none c none) Set.univ (bodyAt1 t) (fun _ => post1 V c t) := by
  unfold pre1 post1 bodyAt1
  simp only [dat1_before0, dat1_before1]
  rw [show (dat1 V c).Φ t.succ = (dat1 V c).Φ t.castSucc from rfl,
    show (dat1 V c).owesAt () t.succ = (dat1 V c).owesAt () t.castSucc from rfl,
    dat1_after0, dat1_after1, dat1_after2]
  iintro ⟨HΦ, Ho, ⟨%d0, H0⟩, ⟨%d1, H1⟩, ⟨%d2, H2⟩⟩
  iapply (simTriple c Set.univ (grid1.coords t) _ _ _ _ _ _ (blk1 V c 0 t) (entBuf V c t d1) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  have h1 : (cfg1.win 1).fill (cfg1.grid.coords t) d1 ((cfg1.win 1).cut (cfg1.grid.coords t) (entBuf V c t zpad)) = entBuf V c t d1 := by
    show win1_1.fill (grid1.coords t) d1 (win1_1.cut (grid1.coords t) (win1_1.fill (grid1.coords t) zpad (blk1 V c 1 t))) = _
    rw [Window.cut_fill]
  have h2 : (cfg1.win 2).fill (cfg1.grid.coords t) (simOut (grid1.coords t) (blk1 V c 0 t) (entBuf V c t d1))
      ((cfg1.win 2).cut (cfg1.grid.coords t) (simOut (grid1.coords t) (blk1 V c 0 t) (entBuf V c t zpad)))
      = simOut (grid1.coords t) (blk1 V c 0 t) (entBuf V c t d1) := by
    rw [show simOut (grid1.coords t) (blk1 V c 0 t) (entBuf V c t zpad) = simOut (grid1.coords t) (blk1 V c 0 t) (entBuf V c t d1)
      from simOut_pad (grid1.coords t) _ zpad d1 _]
    exact Window.fill_cut _ _ _
  isplitl [H1]
  · iexists d1; rw [h1]; iexact H1
  · iexists _; rw [h2]; iexact H2

/-- The body obligation of the similarity kernel's pipeline, at every point, in the form for windows that may overhang. -/
theorem obligation1 (c : Dev nD) : BodyObligationLoose (dat1 (F := F) V c) (defs₀ (F := F)) Variants.none () Set.univ := fun t => by
  rw [bigSep_W1, bigSep_W1]
  exact body1_at V c t

end

end Cert.KernelIdeal.Hand

end
-- ==== Proof.KernelIdeal.Run.lean ====
/-
  The whole program as a run of four segments, for any float instance: two host reshapes (the input flattened to
  [512, 768], the bias laid as a row [1, 256]), the projection kernel's region, the similarity kernel's region, and
  the host reshape of the [512, 100000] result to [4, 128, 100000]. Between two segments a core holds every
  unscoped buffer at known contents: the launch memory, then the host operations applied, then after each region
  its arrays at what the region's write-backs leave and every other buffer as the region found it. The run: from any
  memory with zero counters every weakly fair execution of the program terminates, nothing faulting, with every
  unscoped buffer at the last of these contents. No segment writes an argument array, so each ends as launched.
-/
import proofs.«133783_j66142496358617_2_alg».proof.Proof.KernelIdeal.Region0
import proofs.«133783_j66142496358617_2_alg».proof.Proof.KernelIdeal.Region1
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The unscoped buffers' contents at the five boundaries -/

/-- At launch. -/
abbrev W0 : Dev nD → Valuation τ sig (Elt F) := fun c b => m ((c : Dev nD), b)
/-- After the two leading reshapes: what the projection region finds. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the projection region: its arrays at what its write-backs leave, the rest as found. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After the similarity region. -/
def W3 (c : Dev nD) : Valuation τ sig (Elt F) :=
  Pipeline.withArrays spec1 c (W2 m c) fun w => (dat1 (V2 m) c).arrAt w cfg1.N
abbrev V3 : (c : Dev nD) → (b : Ref sig .tc) → Buf (Elt F) ((c : Thread nD τ).loc b) := fun c b => W3 m c b
/-- After the trailing reshape: the end. -/
abbrev W4 : Dev nD → Valuation τ sig (Elt F) := fun c => StableHlo.after hostOps2 (W3 m c)

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb

theorem exit0_arr (c : Dev nD) (w : Fin cfg0.W) : (dat0 (V1 m) c).arrAt w cfg0.N = V2 m c (Pipeline.arrRef spec0 w) :=
  (W2_arr m c w).symm
theorem exit0_rest (c : Dev nD) : ∀ b, b ∉ Finset.univ.image (Pipeline.arrRef spec0) → V2 m c b = V1 m c b :=
  fun b hb => W2_of_ne m c b fun w e => hb (Finset.mem_image.mpr ⟨w, Finset.mem_univ _, e⟩)
theorem exit1_arr (c : Dev nD) (w : Fin cfg1.W) : (dat1 (V2 m) c).arrAt w cfg1.N = V3 m c (Pipeline.arrRef spec1 w) :=
  (W3_arr m c w).symm
theorem exit1_rest (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The proof data of both pipelines and what rides beside the buffers -/

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c

abbrev 𝒱₀ : Variants := Variants.none
abbrev L : GSem nD τ sig → Finset Unit := fun _ => ∅
abbrev lv : GSem nD τ sig → Unit → ℕ := fun _ _ => 0

/-- Beside the buffers every segment passes on the generator register at some state and the core owing nothing. -/
abbrev R (c : Dev nD) : sProp 𝕄 := iprop((∃ r, prngReg c r) ∗ ∃ W, owes (c : Thread nD τ) (0 : CellTallies nD τ sig Unit) W)

abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem lead_fresh : (hostOps0 : List (HloOp τ sig (Elt F))).Forall fun op => op.fresh = ∅ := by
  simp only [List.Forall]; repeat' constructor
theorem tail_fresh : (hostOps2 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The two regions as segments -/

set_option backward.isDefEq.respectTransparency.types false in
/-- The projection region: entered with every unscoped buffer at `W1`, left with them at `W2`. Its four arrays are
    split out of the unscoped buffers at entry and put back at the exit contents; the generator register goes through
    the invariant; nothing is owed; the kernel has no semaphore of its own. -/
def regProj : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The similarity region: entered with every unscoped buffer at `W2`, left with them at `W3`; otherwise as the first. -/
def regSim : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := obligation1 (V2 m) c
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its segments, and the run -/

abbrev segments : List (Pipeline.Seg (pcfgs (F := F)) adm (pdats m) () defs₀ 𝒱₀ L lv) :=
  [ .host (hostSeg hostOps0 hostOps0_sub lead_fresh (W0 m)),
    .region (regProj m),
    .region (regSim m),
    .host (hostSeg hostOps2 hostOps2_sub tail_fresh (W3 m)) ]

theorem main_is_segments (c : Dev nD) : main (F := F) c = Pipeline.Seg.run (segments m) := (main_chain c).trans (by chain_rfl)

set_option backward.isDefEq.respectTransparency.types false in
/-- THE RUN. From any memory `m` with zero counters every weakly fair execution terminates, nothing faulting, and the
    final memory holds every unscoped buffer at `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segments m)
    (fun c Q => by rw [main_is_segments m c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W4 m c))
    (hch := ⟨fun _ => .rfl, fun _ => .rfl, fun _ => .rfl, fun _ => .rfl, fun c => sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨Hh, HSI⟩
      unfold StableHlo.held
      imodintro
      iapply (pointsTo_read_all (Pipeline.ucRefs τ sig) (fun b => (((c : Thread nD τ)).1, b)) (W4 m c) s')
      isplitl [Hh] <;> iassumption)
    (hQ := fun s h => h)

end Cert.KernelIdeal.Hand

end
-- ==== Proof.KernelIdeal.Frame.lean ====
/-
  No segment of the program writes an argument array: the host reshapes write their own results, the projection
  region writes only its result (it reads the weight matrix through an input window), the similarity region only its
  result (it reads the entity table through an input window). So at the end of the run each argument array holds its
  launch contents, and the program's result buffer holds the last boundary's contents: for any float instance.
-/
import proofs.«133783_j66142496358617_2_alg».proof.Proof.KernelIdeal.Run
import proofs.«133783_j66142496358617_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The leading reshapes write `main_v0` and `main_v1` only; the trailing one `main_v4` only. -/
theorem W1_of (c : Dev nD) (r : Ref sig .tc) (h : r ∉ hostOps0_W) : W1 m c r = W0 m c r :=
  StableHlo.after_of_writes_sub hostOps0 _ hostOps0_writes h
theorem W4_of (c : Dev nD) (r : Ref sig .tc) (h : r ∉ hostOps2_W) : W4 m c r = W3 m c r :=
  StableHlo.after_of_writes_sub hostOps2 _ hostOps2_writes h

theorem end_arg0 (c : Dev nD) : W4 m c (Proc.devRef .tc main_arg0) = m ((c : Thread nD τ).loc main_arg0) :=
  calc W4 m c (Proc.devRef .tc main_arg0)
    _ = W3 m c (Proc.devRef .tc main_arg0) := W4_of m c main_arg0 (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := W1_of m c main_arg0 (by decide)
    _ = m ((c : Thread nD τ).loc main_arg0) := rfl

theorem end_arg1 (c : Dev nD) : W4 m c (Proc.devRef .tc main_arg1) = m ((c : Thread nD τ).loc main_arg1) :=
  calc W4 m c (Proc.devRef .tc main_arg1)
    _ = W3 m c (Proc.devRef .tc main_arg1) := W4_of m c main_arg1 (by decide)
    _ = W2 m c (Proc.devRef .tc main_arg1) := W3_of_ne m c main_arg1 (by decide)
    _ = W1 m c (Proc.devRef .tc main_arg1) := (W2_arr m c 1).trans (((dat0 (V1 m) c).arrAt_in 1 rfl _).trans (dat0_A (V1 m) c 1))
    _ = W0 m c (Proc.devRef .tc main_arg1) := W1_of m c main_arg1 (by decide)
    _ = m ((c : Thread nD τ).loc main_arg1) := rfl

theorem end_arg2 (c : Dev nD) : W4 m c (Proc.devRef .tc main_arg2) = m ((c : Thread nD τ).loc main_arg2) :=
  calc W4 m c (Proc.devRef .tc main_arg2)
    _ = W3 m c (Proc.devRef .tc main_arg2) := W4_of m c main_arg2 (by decide)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := W1_of m c main_arg2 (by decide)
    _ = m ((c : Thread nD τ).loc main_arg2) := rfl

/-- The entity table as the similarity region finds it, and as every later boundary has it: as launched. -/
theorem W2_arg3 (c : Dev nD) : W2 m c (Proc.devRef .tc main_arg3) = m ((c : Thread nD τ).loc main_arg3) :=
  calc W2 m c (Proc.devRef .tc main_arg3)
    _ = W1 m c (Proc.devRef .tc main_arg3) := W2_of_ne m c main_arg3 (by decide)
    _ = W0 m c (Proc.devRef .tc main_arg3) := W1_of m c main_arg3 (by decide)
    _ = m ((c : Thread nD τ).loc main_arg3) := rfl

theorem end_arg3 (c : Dev nD) : W4 m c (Proc.devRef .tc main_arg3) = m ((c : Thread nD τ).loc main_arg3) :=
  calc W4 m c (Proc.devRef .tc main_arg3)
    _ = W3 m c (Proc.devRef .tc main_arg3) := W4_of m c main_arg3 (by decide)
    _ = W2 m c (Proc.devRef .tc main_arg3) := (W3_arr m c 1).trans (((dat1 (V2 m) c).arrAt_in 1 rfl _).trans (dat1_A (V2 m) c 1))
    _ = m ((c : Thread nD τ).loc main_arg3) := W2_arg3 m c

/-- THE RUN read at the result and the arguments: the result buffer ends at the last boundary's contents, each
    argument array as launched. -/
theorem run_result : θ_run defs (onTc (τ := τ) (main (F := F))) ⟨m, fun _ => 0, ρ⟩ (fun r => ∀ c : Dev nD,
      r.2.mem ((c.tc : Thread nD τ).loc main_v4) = W4 m c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v4 (by decide)),
     (h c _ (mem_uc main_arg0 (by decide))).trans (end_arg0 m c),
     (h c _ (mem_uc main_arg1 (by decide))).trans (end_arg1 m c),
     (h c _ (mem_uc main_arg2 (by decide))).trans (end_arg2 m c),
     (h c _ (mem_uc main_arg3 (by decide))).trans (end_arg3 m c)⟩) (run_all m ρ)

/-- THE FRAME: the program runs to the end, faults nowhere, and leaves its argument arrays as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_result m ρ)

end Cert.KernelIdeal.Hand

end
-- ==== Proof.LibMatmulNT.lean ====
/-
  A matrix product whose right operand is contracted on its LAST axis, read at an index, over the extended reals.

  For dimension numbers that contract the left operand's axis 1 with the right operand's axis 1, keep axis 0 of each,
  and have no batch axes — `[M, K] · [N, K] → [M, N]`, the product with the transposed right operand in which no
  transpose is ever formed — entry `(p, q)` of the product accumulated into the zero matrix is
  `∑ₖ lhs (p, k) * rhs (q, k)`. The contraction index, a multi-index with one axis, is its one coordinate; at result
  index `(p, q)` and contraction coordinate `k` the left operand is read at `(p, k)` and the right one at `(q, k)`.
-/
import Idealize.ShloMosaic.Lib.ValueIdx
import Idealize.ShloMosaic.PureOps.Ideal.Laws

noncomputable section

open scoped BigOperators

namespace Idealize.ShloMosaic.MatmulNT

open Idealize.ShloMosaic Idealize.ShloMosaic.ValueIdx

/-- A coordinate of an index does not depend on how its axis number is spelt. -/
theorem coord_congr {S : Shape} (j : S.Idx) {a b : Nat} (ha : a < S.rank) (hb : b < S.rank) (h : a = b) :
    (j ⟨a, ha⟩).val = (j ⟨b, hb⟩).val := by subst h; rfl

variable {M K N : Nat} (d : DotDims ⟨2, ![M, K]⟩ ⟨2, ![N, K]⟩ ⟨2, ![M, N]⟩)
  (hlc : d.lhsContracting = [1]) (hrc : d.rhsContracting = [1])
  (hln : d.lhsNonContracting = [0]) (hrn : d.rhsNonContracting = [0])
  (hlb : d.lhsBatch = []) (hrb : d.rhsBatch = [])

include hln hlb in
/-- The left operand's kept axis is the result's axis 0: its coordinate there is the result's row. -/
theorem lhsIdx_kept (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  exact coord_congr j _ _ (by simp [hlb, hln])

include hln hrn hlb hrb in
/-- The right operand's kept axis is the result's axis 1 (it comes after the left operand's one kept axis): its
    coordinate there is the result's column. -/
theorem rhsIdx_kept (j : (⟨2, ![M, N]⟩ : Shape).Idx) (k : d.contr.Idx) : (d.rhsIdx j k 0).val = (j 1).val := by
  have hb : (0 : Fin (⟨2, ![N, K]⟩ : Shape).rank) ∉ d.rhsBatch := by rw [hrb]; exact List.not_mem_nil
  have hn : (0 : Fin (⟨2, ![N, K]⟩ : Shape).rank) ∈ d.rhsNonContracting := by rw [hrn]; exact List.mem_singleton.mpr rfl
  unfold DotDims.rhsIdx
  rw [dif_neg hb, dif_pos hn]
  simp only [Fin.val_cast]
  exact coord_congr j _ _ (by simp [hlb, hln, hrn])

include hlc in
/-- One axis is contracted, -/
theorem contr_rank : d.contr.rank = 1 := by rw [d.rank_contr, hlc]; rfl

include hlc in
/-- and its extent is the operands' shared inner extent. -/
theorem contr_size (h0 : 0 < d.contr.rank) : d.contr.size ⟨0, h0⟩ = K := by
  have h1 : 0 < d.lhsContracting.length := by rw [hlc]; exact Nat.one_pos
  refine (d.size_contr 0 h1).trans ?_
  have e : d.lhsContracting[0] = (1 : Fin (⟨2, ![M, K]⟩ : Shape).rank) := by simp [hlc]
  rw [e]
  rfl

include hlc hrc hln hrn hlb hrb in
/-- ENTRY `(p, q)` OF THE PRODUCT WITH THE TRANSPOSED RIGHT OPERAND, INTO THE ZERO MATRIX: `∑ₖ lhs (p, k) * rhs (q, k)`. -/
theorem matmul_zero_apply {φ₁ φ₂ : FTy} (prec : Option ContractPrecision)
    (lhs : FVec Ideal ⟨2, ![M, K]⟩ φ₁) (rhs : FVec Ideal ⟨2, ![N, K]⟩ φ₂) (p : Fin M) (q : Fin N) :
    FloatOps.matmul d prec lhs rhs (constant ⟨2, ![M, N]⟩ .f32 0x00000000#32) (ix2 p q)
      = ∑ k : Fin K, lhs (ix2 p k) * rhs (ix2 q k) := by
  rw [Ideal.matmul_constant_zero_apply]
  have hr : d.contr.rank = 1 := contr_rank d hlc
  have hs : d.contr.size ⟨0, by omega⟩ = K := contr_size d hlc _
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhsIdx_kept d hln hlb (ix2 p q) _
    | ⟨1, _⟩ => exact (d.lhsIdx_val_of_single (cl := 1) hlc (ix2 p q) _).trans hk)
  have er : d.rhsIdx (ix2 p q) ((contrEquiv1 d K hr hs).symm k) = ix2 q k := funext fun a => Fin.ext (by
    match a with
    | ⟨0, _⟩ => exact rhsIdx_kept d hln hrn hlb hrb (ix2 p q) _
    | ⟨1, _⟩ => exact (d.rhsIdx_val_of_single (cr := 1) hrc (ix2 p q) _).trans hk)
  rw [el, er]

end Idealize.ShloMosaic.MatmulNT
-- ==== Proof.LibKeepdims.lean ====
/-
  Column-shaped layout operations read at an index given by coordinates.

  A sum taken along the last axis with the axis kept (a "keepdims" row sum) leaves a COLUMN: the vector of
  sums `[a]` is re-laid as `[a, 1]` and then broadcast along the new unit axis to `[a, b]`. Read at `(p, c)`
  each of the two steps returns the operand's entry for row `p`, whatever the column `c`: the cast because
  the row-major position of `(p, 0)` in `[a, 1]` is `p · 1 + 0 = p`, the broadcast because a unit axis is read
  at `0` and every other axis at the result's own coordinate. (The transposed pair — a vector re-laid as one row
  `[1, b]` and that row broadcast over `a` rows — is already in the layout library.)
-/
import Idealize.ShloMosaic.Lib.Pipeline.Value
import Idealize.ShloMosaic.Lib.ValueIdx

namespace Cert.Lib.Keepdims

open Idealize.ShloMosaic Idealize.ShloMosaic.ValueIdx

variable {α : Type}

/-- An `[a]` vector cast to the column `[a, 1]` reads, at `(i, u)`, the operand at `i`: the unit coordinate `u`
    is `0`, and `(i, 0)` sits at row-major position `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry for row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.RowSpec.lean ====
/-
  The row mathematics of a cosine-similarity head, over the extended reals.

  A query row `x` (768 entries) is projected to 256 entries, `q e = tanh (∑ d, x d * w e d + b e)`, and then scaled
  to unit length: `q k / max (sqrt (∑ j, q j * q j)) ε`. An entity row (256 entries) is scaled the same way. The
  similarity of a scaled query row and a scaled entity row is their inner product. `ε` is a fixed single-precision
  word, kept as the word it is: both programs write the same one, so its value is never needed.

  This module names those four functions of rows. It imports no program: the two programs' entries are shown
  elsewhere to be these functions of the rows of their arguments.
-/
import Idealize.ShloMosaic.PureOps.Ideal.Laws
import Idealize.ShloMosaic.Lib.ValueIdx

noncomputable section

open scoped BigOperators

namespace Cert.KernelIdeal.RowMath

open Idealize.ShloMosaic

/-- The floor under a row's length: the single-precision word `0x322BCC77` read as an extended real. -/
def eps : EReal := Ideal.ofBits .f32 0x322BCC77#32

/-- Entry `e` of the projected row: `tanh` of the inner product of the row `xrow` with row `e` of `w`, plus the bias. -/
def proj (xrow : Fin 768 → EReal) (w : Fin 256 → Fin 768 → EReal) (brow : Fin 256 → EReal) (e : Fin 256) : EReal :=
  Ideal.tanh ((∑ d : Fin 768, xrow d * w e d) + brow e)

/-- Entry `k` of the row `v` scaled to unit length: `v k` over the larger of the row's length and `eps`. -/
def unit (v : Fin 256 → EReal) (k : Fin 256) : EReal :=
  Ideal.div (v k) (max (Ideal.sqrt (∑ j : Fin 256, v j * v j)) eps)

/-- The inner product of two rows. -/
def sim (qrow erow : Fin 256 → EReal) : EReal := ∑ d : Fin 256, qrow d * erow d

end Cert.KernelIdeal.RowMath

end
-- ==== Proof.RowNorm.lean ====
/-
  A block's rows scaled to unit length, read at an index.

  A block `v` of `a` rows and 256 columns is scaled row by row: the squares are summed along each row (a lane sum
  with the column axis dropped), the vector of sums is re-laid as a column `[a, 1]`, its square root is taken, the
  larger of that and the floor `ε` is kept, the column is broadcast back over the 256 columns, and the block is
  divided by it. Read at `(p, e)` the result is entry `e` of row `p` of `v` scaled to unit length: each layout step
  reads row `p`'s own sum, and the sum over the dropped axis at row `p` runs over the entries `(p, k)` of that row.
-/
import Idealize.ShloMosaic.Lib.Pipeline.Value
import Idealize.ShloMosaic.Lib.ValueLayout
import proofs.«133783_j66142496358617_2_alg».proof.Proof.LibKeepdims
import proofs.«133783_j66142496358617_2_alg».proof.Proof.RowSpec

noncomputable section

open scoped BigOperators

namespace Cert.KernelIdeal.RowMath

open Idealize.ShloMosaic Idealize.ShloMosaic.ValueIdx

/-- Over row `p` of an `[a, 256]` block, the index with column `k` put back on the dropped axis is `(p, k)`. -/
theorem lift_row {a : ℕ} (hr : Shape.Reduces ⟨2, ![a, 256]⟩ [1] ⟨1, ![a]⟩) (p : Fin a) (k : Fin 256) :
    hr.lift (ix1 p) k = ix2 p k := by
  funext c
  apply Fin.ext
  match c with
  | ⟨0, _⟩ => rfl
  | ⟨1, _⟩ => rfl

/-- The lane sum of the squares of an `[a, 256]` block, at row `p`: the sum over that row's 256 entries. The zero
    word the sum starts from does not appear: at the extended reals the sum over one axis is the plain sum. -/
theorem rowSum_apply {a : ℕ} (v : FVec Ideal ⟨2, ![a, 256]⟩ .f32)
    (hr : Shape.Reduces ⟨2, ![a, 256]⟩ [1] ⟨1, ![a]⟩) (hφ : FKind.Formats .f32)
    (hacc : (0x00000000#32 : BitVec 32) = FKind.add.neutral .f32 hφ) (p : Fin a) :
    multiReduction (F := Ideal) .add [1] ⟨1, ![a]⟩ (mulf v v) 0x00000000#32 hr hφ hacc (ix1 p)
      = ∑ k : Fin 256, v (ix2 p k) * v (ix2 p k) := by
  refine (Ideal.multiReduction_add_single (mulf v v) 0x00000000#32 hr hφ hacc (ix1 p)).trans ?_
  refine Finset.sum_congr rfl fun k _ => ?_
  show v (hr.lift (ix1 p) k) * v (hr.lift (ix1 p) k) = _
  rw [lift_row hr p k]

/-- THE BLOCK SCALED ROW BY ROW, AT `(p, e)`: entry `e` of row `p` scaled to unit length. -/
theorem rowUnit_apply {a : ℕ} (v : FVec Ideal ⟨2, ![a, 256]⟩ .f32)
    (hr : Shape.Reduces ⟨2, ![a, 256]⟩ [1] ⟨1, ![a]⟩) (hφ : FKind.Formats .f32)
    (hacc : (0x00000000#32 : BitVec 32) = FKind.add.neutral .f32 hφ)
    (hc : (⟨1, ![a]⟩ : Shape).ShapeCasts ⟨2, ![a, 1]⟩)
    (hb : (⟨2, ![a, 1]⟩ : Shape).Broadcasts ⟨2, ![a, 256]⟩) (p : Fin a) (e : Fin 256) :
    divf (F := Ideal) v (broadcastTo ⟨2, ![a, 256]⟩
        (maximumf (F := Ideal) (sqrt (F := Ideal) (shapeCast ⟨2, ![a, 1]⟩
            (multiReduction (F := Ideal) .add [1] ⟨1, ![a]⟩ (mulf v v) 0x00000000#32 hr hφ hacc) hc))
          (broadcast ⟨2, ![a, 1]⟩ (Scalar.ofBits (F := Ideal) .f32 0x322BCC77#32))) hb) (ix2 p e)
      = unit (fun k => v (ix2 p k)) e := by
  show Ideal.div (v (ix2 p e)) (broadcastTo ⟨2, ![a, 256]⟩ _ hb (ix2 p e))
      = Ideal.div (v (ix2 p e)) (max (Ideal.sqrt (∑ j : Fin 256, v (ix2 p j) * v (ix2 p j))) eps)
  refine congrArg (Ideal.div (v (ix2 p e))) ?_
  refine (Cert.Lib.Keepdims.broadcastTo_a1_ab_apply _ hb p e).trans ?_
  show max (Ideal.sqrt (shapeCast ⟨2, ![a, 1]⟩ _ hc (ix2 p (0 : Fin 1)))) eps = _
  refine congrArg (fun t => max (Ideal.sqrt t) eps) ?_
  refine (Cert.Lib.Keepdims.shapeCast_a_a1_apply _ hc p 0).trans ?_
  exact rowSum_apply v hr hφ hacc p

end Cert.KernelIdeal.RowMath

end
-- ==== Proof.Payload0.lean ====
/-
  The projection kernel's stored block, read at an index.

  The first kernel's body takes a block of 128 query rows `xb`, the whole weight matrix `w` and the bias row `b`,
  forms `tanh (xb · wᵀ + b)` — the product contracts the last axis of both operands, so no transpose is formed, and
  the bias row is broadcast over the 128 rows — and scales each row of the result to unit length. The casts to the
  sixteen-bit format in front of the product are the identity on the extended reals. Entry `(p, e)` of what it stores
  is therefore entry `e` of the projected row `p`, scaled to unit length.
-/
import proofs.«133783_j66142496358617_2_alg».proof.Proof.Gen.KernelIdeal.Skeleton
import proofs.«133783_j66142496358617_2_alg».proof.Proof.LibMatmulNT
import proofs.«133783_j66142496358617_2_alg».proof.Proof.RowNorm

noncomputable section

open scoped BigOperators

namespace Cert.KernelIdeal.RowMath

open Cert.KernelIdeal Idealize.ShloMosaic Idealize.ShloMosaic.ValueIdx

/-- The projected block before scaling: `tanh` of the product into the zero matrix plus the broadcast bias row. -/
def projBlock (xb : Vec Ideal S128x768 .f32) (w : Vec Ideal S256x768 .f32) (b : Vec Ideal S1x256 .f32) :
    FVec Ideal S128x256 .f32 :=
  tanh (F := Ideal) (addf (F := Ideal)
    (matmul (F := Ideal) dot_S128x768_S256x768_S128x256_1_1_0_0_n_n none
      (truncf (F := Ideal) .bf16 (shapeCast S128x768 xb Gen.shapeCasts_S128x768_S128x768) Gen.bitsLt_bf16_f32)
      (truncf (F := Ideal) .bf16 w Gen.bitsLt_bf16_f32)
      (constant (F := Ideal) S128x256 .f32 0x00000000#32))
    (broadcastTo S128x256 (shapeCast S1x256 (shapeCast S1x256 b Gen.shapeCasts_S1x256_S1x256) Gen.shapeCasts_S1x256_S1x256)
      Gen.broadcasts_S1x256_S128x256))

/-- Entry `(p, e)` of the projected block is entry `e` of the projection of row `p`: the product's entry is the sum
    over the shared inner axis of `xb (p, d) * w (e, d)`, and the broadcast bias reads its one row at column `e`. -/
theorem projBlock_apply (xb : Vec Ideal S128x768 .f32) (w : Vec Ideal S256x768 .f32) (b : Vec Ideal S1x256 .f32)
    (p : Fin 128) (e : Fin 256) :
    projBlock xb w b (ix2 p e)
      = proj (fun d => xb (ix2 p d)) (fun e d => w (ix2 e d)) (fun e => b (ix2 (0 : Fin 1) e)) e := by
  show Ideal.tanh
      (FloatOps.matmul dot_S128x768_S256x768_S128x256_1_1_0_0_n_n none
          (truncf (F := Ideal) .bf16 (shapeCast S128x768 xb Gen.shapeCasts_S128x768_S128x768) Gen.bitsLt_bf16_f32)
          (truncf (F := Ideal) .bf16 w Gen.bitsLt_bf16_f32)
          (constant (F := Ideal) S128x256 .f32 0x00000000#32) (ix2 p e)
        + broadcastTo S128x256 (shapeCast S1x256 (shapeCast S1x256 b Gen.shapeCasts_S1x256_S1x256) Gen.shapeCasts_S1x256_S1x256)
            Gen.broadcasts_S1x256_S128x256 (ix2 p e))
      = Ideal.tanh ((∑ d : Fin 768, xb (ix2 p d) * w (ix2 e d)) + b (ix2 (0 : Fin 1) e))
  refine congrArg Ideal.tanh (congrArg₂ (· + ·) ?_ ?_)
  · refine (MatmulNT.matmul_zero_apply dot_S128x768_S256x768_S128x256_1_1_0_0_n_n rfl rfl rfl rfl rfl rfl none _ _ p e).trans ?_
    refine Finset.sum_congr rfl fun d _ => ?_
    show shapeCast S128x768 xb Gen.shapeCasts_S128x768_S128x768 (ix2 p d) * w (ix2 e d) = _
    rw [shapeCast_self]
  · refine (broadcastTo_1b_ab_apply _ Gen.broadcasts_S1x256_S128x256 p e).trans ?_
    rw [shapeCast_self, shapeCast_self]

/-- THE FIRST KERNEL'S STORED BLOCK AT `(p, e)`: entry `e` of the projection of query row `p`, scaled to unit length. -/
theorem k0_pay1_apply (xb : Vec Ideal S128x768 .f32) (w : Vec Ideal S256x768 .f32) (b : Vec Ideal S1x256 .f32)
    (p : Fin 128) (e : Fin 256) :
    Gen.k0_pay1 (F := Ideal) xb w b (ix2 p e)
      = unit (proj (fun d => xb (ix2 p d)) (fun e d => w (ix2 e d)) (fun e => b (ix2 (0 : Fin 1) e))) e := by
  refine (rowUnit_apply (projBlock xb w b) Gen.reduces_S128x256_S128 (.inl rfl) rfl Gen.shapeCasts_S128_S128x1
    Gen.broadcasts_S128x1_S128x256 p e).trans ?_
  exact congrArg (fun v => unit v e) (funext fun k => projBlock_apply xb w b p k)

end Cert.KernelIdeal.RowMath

end
-- ==== Proof.KernelIdeal.Value0.lean ====
/-
  The projection kernel's result array, after its four grid points, over the extended reals.

  Grid point `t` stages rows `128·t … 128·t+127` of the flattened queries, the whole weight matrix and the bias row,
  and writes back rows `128·t … 128·t+127` of the result: what the body stored, which is entry by entry the projected
  row scaled to unit length. Row `p` of the block at point `t` is row `128·t + p` of the array on both sides, the
  weight and bias blocks are their whole arrays, so what point `t` writes back is block `t` of ONE function of the
  arrays: row `r`, column `e` ↦ entry `e` of the projection of query row `r`, scaled. The four blocks tile the 512
  rows (the point covering row `r` is `r / 128`), so the array ends holding that function.
-/
import proofs.«133783_j66142496358617_2_alg».proof.Proof.KernelIdeal.Region0
import proofs.«133783_j66142496358617_2_alg».proof.Proof.Payload0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- What the body leaves in the output buffer is its arithmetic on the three input buffers' contents: its loads
    read whole buffers and its one store covers the output buffer. -/
theorem projOut_eq (x0 : Vec Ideal S128x768 .f32) (x1 : Vec Ideal S256x768 .f32) (x2 : Vec Ideal S1x256 .f32) :
    projOut x0 x1 x2 = k0_pay1 x0 x1 x2 := by
  have hz : (![0, 0] : Fin 2 → Nat) = fun _ => 0 := funext fun a => by fin_cases a <;> rfl
  unfold projOut
  rw [View.canon_unit_zero hz, View.ld_unit_zero (S := S128x768) hz, View.ld_unit_zero (S := S256x768) hz,
    View.ld_unit_zero (S := S1x256) hz]

/-- The array of scaled projected rows: at `(r, e)`, entry `e` of the projection of query row `r` (of the
    flattened queries as the region finds them), scaled to unit length. -/
abbrev projArr (c : Dev nD) : Buf (Elt Ideal) ((cfg0.win 3).arr.view.loc (c : Thread nD τ)) :=
  fun j => RowMath.unit (RowMath.proj (fun d => V c main_v0 (ix2 (j 0 : Fin 512) d)) (fun e d => V c main_arg1 (ix2 e d))
    (fun e => V c main_v1 (ix2 (0 : Fin 1) e))) (j 1 : Fin 256)

/-- The printed index maps over the four grid points: the query window's and the result window's row-block index
    is the point, every other block index is zero. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- AT ONE ENTRY OF THE BLOCK at point `t`: the body's arithmetic on the three blocks there is the array of scaled
    projected rows at the entry's place in the array. -/
theorem proj_point (c : Dev nD) (t : Fin cfg0.N) (y : S128x256.Idx) :
    k0_pay1 (F := Ideal) (blk0 V c 0 t) (blk0 V c 1 t) (blk0 V c 2 t) y
      = projArr V c (((cfg0.win 3).blk t).view.emb y) := by
  obtain ⟨p, e, rfl⟩ : ∃ (p : Fin 128) (e : Fin 256), y = ix2 p e := ⟨y 0, y 1, eq_ix2 y⟩
  obtain ⟨e00, e01, e10, e11, e20, e21, e30, e31⟩ := idx_facts0 t
  refine (RowMath.k0_pay1_apply _ _ _ p e).trans ?_
  have hp : ∀ d : Fin 768, blk0 V c 0 t (ix2 p d)
      = V c main_v0 (ix2 ((((cfg0.win 3).blk t).view.emb (ix2 p e)) 0 : Fin 512) d) := fun d => by
    show V c main_v0 (((cfg0.win 0).blk t).view.emb (ix2 p d)) = _
    refine congrArg (V c main_v0) (funext fun a => Fin.ext ?_)
    match a with
    | ⟨0, _⟩ =>
      show win0_0.index t (0 : Fin 2) * 128 + 1 * p.val = win0_3.index t (0 : Fin 2) * 128 + 1 * p.val
      omega
    | ⟨1, _⟩ =>
      show win0_0.index t (1 : Fin 2) * 768 + 1 * d.val = d.val
      omega
  have hw : ∀ (e' : Fin 256) (d : Fin 768), blk0 V c 1 t (ix2 e' d) = V c main_arg1 (ix2 e' d) := fun e' d => by
    show V c main_arg1 (((cfg0.win 1).blk t).view.emb (ix2 e' d)) = _
    refine congrArg (V c main_arg1) (funext fun a => Fin.ext ?_)
    match a with
    | ⟨0, _⟩ =>
      show win0_1.index t (0 : Fin 2) * 256 + 1 * e'.val = e'.val
      omega
    | ⟨1, _⟩ =>
      show win0_1.index t (1 : Fin 2) * 768 + 1 * d.val = d.val
      omega
  have hb : ∀ e' : Fin 256, blk0 V c 2 t (ix2 (0 : Fin 1) e') = V c main_v1 (ix2 (0 : Fin 1) e') := fun e' => by
    show V c main_v1 (((cfg0.win 2).blk t).view.emb (ix2 (0 : Fin 1) e')) = _
    refine congrArg (V c main_v1) (funext fun a => Fin.ext ?_)
    match a with
    | ⟨0, _⟩ =>
      show win0_2.index t (0 : Fin 2) * 1 + 1 * 0 = 0
      omega
    | ⟨1, _⟩ =>
      show win0_2.index t (1 : Fin 2) * 256 + 1 * e'.val = e'.val
      omega
  have he : ((((cfg0.win 3).blk t).view.emb (ix2 p e)) 1 : Fin 256) = e := Fin.ext (by
    show win0_3.index t (1 : Fin 2) * 256 + 1 * e.val = e.val
    omega)
  show RowMath.unit (RowMath.proj (fun d => blk0 V c 0 t (ix2 p d)) (fun e' d => blk0 V c 1 t (ix2 e' d))
      (fun e' => blk0 V c 2 t (ix2 (0 : Fin 1) e'))) e
    = RowMath.unit (RowMath.proj (fun d => V c main_v0 (ix2 ((((cfg0.win 3).blk t).view.emb (ix2 p e)) 0 : Fin 512) d))
      (fun e' d => V c main_arg1 (ix2 e' d)) (fun e' => V c main_v1 (ix2 (0 : Fin 1) e')))
      ((((cfg0.win 3).blk t).view.emb (ix2 p e)) 1 : Fin 256)
  rw [he, funext hp, funext fun e' => funext (hw e'), funext hb]

/-- WHAT POINT `t` WRITES BACK is block `t` of the array of scaled projected rows. -/
theorem proj_flushed (c : Dev nD) (t : Fin cfg0.N) :
    (dat0 V c).flushed 3 t = ((cfg0.win 3).blk t).view.read (Elt Ideal) (projArr V c) := by
  show (cfg0.win 3).cut (grid0.coords t) ((dat0 V c).after 3 t) = _
  rw [dat0_after3, projOut_eq]
  funext y
  exact proj_point V c t y

/-- An index of the result array is in point `t`'s block iff each coordinate is in the block's range on its axis. -/
theorem proj_mem_blk (t : Fin cfg0.N) (i : S512x256.Idx) :
    i ∈ ((cfg0.win 3).blk t).view.set ↔ ∀ a : Fin 2, win0_3.index t a * S128x256.size a ≤ (i a).val
      ∧ (i a).val < win0_3.index t a * S128x256.size a + S128x256.size a := by
  show i ∈ ((View.whole main_v2).slice (win0_3.rect t)).set ↔ _
  rw [View.set_slice_whole, Rect.mem_set_unit]
  exact Iff.rfl

/-- The four blocks tile the array: row `r` lies in the block of point `r / 128`. -/
theorem proj_cover (i : S512x256.Idx) :
    ∃ t : Fin cfg0.N, (cfg0.win 3).flush t = true ∧ i ∈ ((cfg0.win 3).blk t).view.set := by
  have hN : cfg0.N = 4 := N_0
  have hi0 : (i 0).val < 512 := (i 0).isLt
  have hi1 : (i 1).val < 256 := (i 1).isLt
  refine ⟨⟨(i 0).val / 128, by omega⟩, flush0_3 _, ?_⟩
  obtain ⟨-, -, -, -, -, -, e30, e31⟩ := idx_facts0 ⟨(i 0).val / 128, by omega⟩
  rw [proj_mem_blk]
  intro a
  match a with
  | ⟨0, _⟩ =>
    show win0_3.index _ (0 : Fin 2) * 128 ≤ (i 0).val ∧ (i 0).val < win0_3.index _ (0 : Fin 2) * 128 + 128
    rw [e30]; show (i 0).val / 128 * 128 ≤ (i 0).val ∧ (i 0).val < (i 0).val / 128 * 128 + 128
    omega
  | ⟨1, _⟩ =>
    show win0_3.index _ (1 : Fin 2) * 256 ≤ (i 1).val ∧ (i 1).val < win0_3.index _ (1 : Fin 2) * 256 + 256
    rw [e31]; omega

/-- THE PROJECTION KERNEL'S RESULT ARRAY after the region: the array of scaled projected rows. -/
theorem proj_final (c : Dev nD) : (dat0 (F := Ideal) V c).arrAt 3 cfg0.N = projArr V c :=
  (dat0 V c).arrAt_eq_of_cover 3 (projArr V c) (fun t _ => proj_flushed V c t) (proj_cover)

end Cert.KernelIdeal.Hand

end
-- ==== Proof.Payload1.lean ====
/-
  The similarity kernel's stored block, read at an index.

  The second kernel's body takes the 512 scaled query rows `qn` and a block `eb` of 4096 entity rows. Block `i` of the
  grid holds the entity rows `i · 4096 + r`; the table has 100000 rows, so the last block reaches past its end, and the
  body first replaces every row whose number `i · 4096 + r` is not below 100000 by zeros. It then scales each row to
  unit length and multiplies the query rows by the transposed block (both operands contracted on their last axis).
  For a row `r` of the block that lies inside the table the mask keeps the row as it is, so entry `(p, r)` of what is
  stored is the inner product of query row `p` with entity row `r` scaled to unit length. The row numbers are 32-bit
  words; with `i` below 25 and `r` below 4096 neither the product nor the sum wraps, and the signed comparison
  with 100000 is the comparison of the natural numbers.
-/
import proofs.«133783_j66142496358617_2_alg».proof.Proof.Gen.KernelIdeal.Skeleton
import proofs.«133783_j66142496358617_2_alg».proof.Proof.LibMatmulNT
import proofs.«133783_j66142496358617_2_alg».proof.Proof.RowNorm

noncomputable section

open scoped BigOperators

namespace Cert.KernelIdeal.RowMath

open Cert.KernelIdeal Idealize.ShloMosaic Idealize.ShloMosaic.ValueIdx

/-- A row number `n · 4096 + r` below 100000, formed in 32-bit words, compares below the word 100000 as a signed
    number: the product and the sum are the words of the natural numbers (nothing wraps below `2^31`), and a word
    below `2^31` read signed is the number itself. -/
theorem rowWord_slt (n r : Nat) (h : n * 4096 + r < 100000) :
    IntOp.cmpi .slt (IntOp.addi (Scalar.muli (BitVec.ofNat 32 n) 4096#32) (BitVec.ofNat 32 r)) 100000#32 = 1#1 := by
  have e : IntOp.addi (Scalar.muli (BitVec.ofNat 32 n) 4096#32) (BitVec.ofNat 32 r) = BitVec.ofNat 32 (n * 4096 + r) := by
    show BitVec.ofNat 32 n * BitVec.ofNat 32 4096 + BitVec.ofNat 32 r = _
    rw [BitVec.ofNat_mul_ofNat, BitVec.ofNat_add_ofNat]
  rw [e]
  have hs : (BitVec.ofNat 32 (n * 4096 + r)).slt 100000#32 = true := by
    rw [BitVec.slt_eq_decide, decide_eq_true_eq]
    have h1 : (BitVec.ofNat 32 (n * 4096 + r)).toNat = n * 4096 + r := by
      rw [BitVec.toNat_ofNat]; omega
    have h2 : (BitVec.ofNat 32 (n * 4096 + r)).toInt = ((n * 4096 + r : Nat) : Int) := by
      rw [BitVec.toInt_eq_toNat_of_lt (by rw [h1]; omega), h1]
    have h3 : (100000#32 : BitVec 32).toInt = 100000 := by decide
    rw [h2, h3]
    omega
  show BitVec.ofBool ((BitVec.ofNat 32 (n * 4096 + r)).slt 100000#32) = 1#1
  rw [hs]
  rfl

/-- The entity block with the rows past the table's end replaced by zeros: row `r` is kept where the word
    `i · 4096 + r` compares below 100000. -/
def maskedBlock (i : grid1.Coords) (eb : Vec Ideal S4096x256 .f32) : Vec Ideal S4096x256 .f32 :=
  select
    (cmpi .slt
      (addi (broadcast S4096x256 (Scalar.muli (BitVec.ofNat 32 (i 0).val) 4096#32))
        (iota .tc S4096x256 32 [0] Gen.iota_S4096x256_d0_w32))
      (broadcast S4096x256 100000#32))
    eb (broadcast S4096x256 (Scalar.ofBits (F := Ideal) .f32 0x00000000#32))

/-- A row inside the table is kept: the row counter along axis 0 reads the row's coordinate `r`, and the word
    `i · 4096 + r` compares below 100000. -/
theorem maskedBlock_apply (i : grid1.Coords) (eb : Vec Ideal S4096x256 .f32) (r : Fin 4096) (k : Fin 256)
    (h : (i 0).val * 4096 + r.val < 100000) : maskedBlock i eb (ix2 r k) = eb (ix2 r k) := by
  show Scalar.select
      (IntOp.cmpi .slt
        (IntOp.addi (Scalar.muli (BitVec.ofNat 32 (i 0).val) 4096#32)
          (iota .tc S4096x256 32 [0] Gen.iota_S4096x256_d0_w32 (ix2 r k)))
        100000#32)
      (eb (ix2 r k)) (Scalar.ofBits (F := Ideal) .f32 0x00000000#32) = eb (ix2 r k)
  rw [iota_single_apply]
  show Scalar.select
      (IntOp.cmpi .slt (IntOp.addi (Scalar.muli (BitVec.ofNat 32 (i 0).val) 4096#32) (BitVec.ofNat 32 r.val)) 100000#32)
      (eb (ix2 r k)) (Scalar.ofBits (F := Ideal) .f32 0x00000000#32) = eb (ix2 r k)
  rw [rowWord_slt _ _ h, select_one]

/-- The block of scaled entity rows the product takes as its right operand. -/
def unitBlock (i : grid1.Coords) (eb : Vec Ideal S4096x256 .f32) : FVec Ideal S4096x256 .f32 :=
  divf (F := Ideal) (maskedBlock i eb) (broadcastTo S4096x256
    (maximumf (F := Ideal) (sqrt (F := Ideal) (shapeCast S4096x1
        (multiReduction (F := Ideal) .add [1] S4096 (mulf (F := Ideal) (maskedBlock i eb) (maskedBlock i eb)) 0x00000000#32
          Gen.reduces_S4096x256_S4096 (.inl rfl) rfl) Gen.shapeCasts_S4096_S4096x1))
      (broadcast S4096x1 (Scalar.ofBits (F := Ideal) .f32 0x322BCC77#32))) Gen.broadcasts_S4096x1_S4096x256)

/-- Row `r` of that block, for a row inside the table, is entity row `r` scaled to unit length. -/
theorem unitBlock_apply (i : grid1.Coords) (eb : Vec Ideal S4096x256 .f32) (r : Fin 4096) (k : Fin 256)
    (h : (i 0).val * 4096 + r.val < 100000) : unitBlock i eb (ix2 r k) = unit (fun d => eb (ix2 r d)) k := by
  refine (rowUnit_apply (maskedBlock i eb) Gen.reduces_S4096x256_S4096 (.inl rfl) rfl Gen.shapeCasts_S4096_S4096x1
    Gen.broadcasts_S4096x1_S4096x256 r k).trans ?_
  exact congrArg (fun v => unit v k) (funext fun d => maskedBlock_apply i eb r d h)

/-- THE SECOND KERNEL'S STORED BLOCK AT `(p, r)`, for a row `r` inside the table: the inner product of scaled query row
    `p` with entity row `r` scaled to unit length. -/
theorem k1_pay1_apply (i : grid1.Coords) (qn : Vec Ideal S512x256 .f32) (eb : Vec Ideal S4096x256 .f32)
    (p : Fin 512) (r : Fin 4096) (h : (i 0).val * 4096 + r.val < 100000) :
    Gen.k1_pay1 (F := Ideal) i qn eb (ix2 p r) = sim (fun d => qn (ix2 p d)) (unit (fun d => eb (ix2 r d))) := by
  show FloatOps.matmul dot_S512x256_S4096x256_S512x4096_1_1_0_0_n_n none
      (truncf (F := Ideal) .bf16 (shapeCast S512x256 qn Gen.shapeCasts_S512x256_S512x256) Gen.bitsLt_bf16_f32)
      (truncf (F := Ideal) .bf16 (unitBlock i eb) Gen.bitsLt_bf16_f32)
      (constant (F := Ideal) S512x4096 .f32 0x00000000#32) (ix2 p r)
    = ∑ d : Fin 256, qn (ix2 p d) * unit (fun d => eb (ix2 r d)) d
  refine (MatmulNT.matmul_zero_apply dot_S512x256_S4096x256_S512x4096_1_1_0_0_n_n rfl rfl rfl rfl rfl rfl none _ _ p r).trans ?_
  refine Finset.sum_congr rfl fun d _ => ?_
  show shapeCast S512x256 qn Gen.shapeCasts_S512x256_S512x256 (ix2 p d) * unitBlock i eb (ix2 r d) = _
  rw [shapeCast_self, unitBlock_apply i eb r d h]

end Cert.KernelIdeal.RowMath

end
-- ==== Proof.KernelIdeal.Value1.lean ====
/-
  The similarity kernel's result array, after its 25 grid points, over the extended reals.

  Grid point `t` stages the whole matrix of scaled query rows and entity rows `4096·t …` of the table, and writes
  back columns `4096·t …` of the result, cut at the result's last column (the last block keeps its first 1696
  columns). Column `r` of the block at point `t` that is written back is column `4096·t + r` of the result, below
  100000; so entity row `r` of the staged block lies inside the table, was fetched, and is row `4096·t + r` of the
  table; and the body's arithmetic there is the inner product of scaled query row `p` with that entity row scaled to
  unit length. What point `t` writes back is therefore block `t` of ONE function of the arrays, and the 25 cut blocks
  tile the 100000 columns (the point covering column `e` is `e / 4096`), so the array ends holding that function.
-/
import proofs.«133783_j66142496358617_2_alg».proof.Proof.KernelIdeal.Region1
import proofs.«133783_j66142496358617_2_alg».proof.Proof.Payload1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The array of similarities: at `(p, e)`, the inner product of scaled query row `p` (of the first kernel's result
    as the region finds it) with entity row `e` of the table scaled to unit length. -/
abbrev simArr (c : Dev nD) : Buf (Elt Ideal) ((cfg1.win 2).arr.view.loc (c : Thread nD τ)) :=
  fun j => RowMath.sim (fun d => V c main_v2 (ix2 (j 0 : Fin 512) d))
    (RowMath.unit (fun d => V c main_arg3 (ix2 (j 1 : Fin 100000) d)))

/-- The printed index maps over the 25 grid points: the grid coordinate is the point; the entity window's row-block
    index and the result window's column-block index are the point; every other block index is zero. -/
theorem idx_facts1 : ∀ t : Fin cfg1.N, (grid1.coords t 0).val = t.val
    ∧ win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val :=
  (by decide +kernel : ∀ t : Fin grid1.N, _)

/-- The result window's column-block index at grid coordinates `i` is `i`. -/
theorem outIndex1 (i : grid1.Coords) : win1_2.indexMap i 1 = (i 0).val := by
  have hi := coord_lt i
  show (BitVec.ofNat 32 (i 0).val).toNat = _
  rw [BitVec.toNat_ofNat]; exact Nat.mod_eq_of_lt (by omega)

/-- The result block is never cut along its rows, -/
theorem outX0 (i : grid1.Coords) : win1_2.xsize i 0 = 512 := by
  show (Pipeline.Clip.of 0 512 512).extent 512 = 512
  decide

/-- and along its columns it keeps those that lie below 100000 in the result. -/
theorem outX1_lt_iff (i : grid1.Coords) (n : Nat) (hn : n < 4096) :
    n < win1_2.xsize i 1 ↔ (i 0).val * 4096 + n < 100000 := by
  have hi := coord_lt i
  have hx : win1_2.xsize i 1 = (Pipeline.Clip.of (i 0).val 4096 100000).extent 4096 := by
    show (Pipeline.Clip.of (win1_2.indexMap i 1) 4096 100000).extent 4096 = _
    rw [outIndex1]
  rw [hx]
  unfold Pipeline.Clip.of
  split
  · show n < 4096 ↔ _
    omega
  · show n < 100000 - (i 0).val * 4096 ↔ _
    omega

/-- AT ONE ENTRY THAT POINT `t` WRITES BACK: the body's arithmetic on the query block and the entity buffer there is
    the array of similarities at the entry's place in the result. -/
theorem sim_point (c : Dev nD) (t : Fin cfg1.N) (y : ((cfg1.win 2).xblock (cfg1.grid.coords t)).Idx) :
    k1_pay1 (F := Ideal) (grid1.coords t) (blk1 V c 0 t) (entBuf V c t zpad) ((cfg1.win 2).xinj (cfg1.grid.coords t) y)
      = simArr V c (((cfg1.win 2).blk t).view.emb y) := by
  obtain ⟨ec, e00, e01, e10, e11, e20, e21⟩ := idx_facts1 t
  have hy0' : (y 0).val < win1_2.xsize (grid1.coords t) 0 := (y 0).isLt
  have hy0 : (y 0).val < 512 := lt_of_lt_of_eq hy0' (outX0 (grid1.coords t))
  have hy1' : (y 1).val < win1_2.xsize (grid1.coords t) 1 := (y 1).isLt
  have hy1 : (y 1).val < 4096 := Nat.lt_of_lt_of_le hy1' (win1_2.xsize_le (grid1.coords t) 1)
  have h : (grid1.coords t 0).val * 4096 + (y 1).val < 100000 := (outX1_lt_iff (grid1.coords t) (y 1).val hy1).mp hy1'
  have hxy : (cfg1.win 2).xinj (cfg1.grid.coords t) y = ix2 (⟨(y 0).val, hy0⟩ : Fin 512) (⟨(y 1).val, hy1⟩ : Fin 4096) :=
    funext fun a => by
      match a with
      | ⟨0, _⟩ => rfl
      | ⟨1, _⟩ => rfl
  rw [hxy]
  refine (RowMath.k1_pay1_apply (grid1.coords t) _ _ ⟨(y 0).val, hy0⟩ ⟨(y 1).val, hy1⟩ h).trans ?_
  have hq : ∀ d : Fin 256, blk1 V c 0 t (ix2 (⟨(y 0).val, hy0⟩ : Fin 512) d)
      = V c main_v2 (ix2 ((((cfg1.win 2).blk t).view.emb y) 0 : Fin 512) d) := fun d => by
    show V c main_v2 (((cfg1.win 0).blk t).view.emb (ix2 (⟨(y 0).val, hy0⟩ : Fin 512) d)) = _
    refine congrArg (V c main_v2) (funext fun a => Fin.ext ?_)
    match a with
    | ⟨0, _⟩ =>
      show win1_0.index t (0 : Fin 2) * 512 + 1 * (y 0).val = win1_2.index t (0 : Fin 2) * 512 + 1 * (y 0).val
      omega
    | ⟨1, _⟩ =>
      show win1_0.index t (1 : Fin 2) * 256 + 1 * d.val = d.val
      omega
  have he : ∀ d : Fin 256, entBuf V c t zpad (ix2 (⟨(y 1).val, hy1⟩ : Fin 4096) d)
      = V c main_arg3 (ix2 ((((cfg1.win 2).blk t).view.emb y) 1 : Fin 100000) d) := fun d => by
    show win1_1.fill (grid1.coords t) zpad (blk1 V c 1 t) (ix2 (⟨(y 1).val, hy1⟩ : Fin 4096) d) = _
    unfold Window.fill
    rw [dif_pos ((entMoved_iff (grid1.coords t) (ix2 (⟨(y 1).val, hy1⟩ : Fin 4096) d)).mpr h)]
    show V c main_arg3 (((cfg1.win 1).blk t).view.emb _) = _
    refine congrArg (V c main_arg3) (funext fun a => Fin.ext ?_)
    match a with
    | ⟨0, _⟩ =>
      show win1_1.index t (0 : Fin 2) * 4096 + 1 * (y 1).val = win1_2.index t (1 : Fin 2) * 4096 + 1 * (y 1).val
      omega
    | ⟨1, _⟩ =>
      show win1_1.index t (1 : Fin 2) * 256 + 1 * d.val = d.val
      omega
  show RowMath.sim (fun d => blk1 V c 0 t (ix2 (⟨(y 0).val, hy0⟩ : Fin 512) d))
      (RowMath.unit (fun d => entBuf V c t zpad (ix2 (⟨(y 1).val, hy1⟩ : Fin 4096) d)))
    = RowMath.sim (fun d => V c main_v2 (ix2 ((((cfg1.win 2).blk t).view.emb y) 0 : Fin 512) d))
      (RowMath.unit (fun d => V c main_arg3 (ix2 ((((cfg1.win 2).blk t).view.emb y) 1 : Fin 100000) d)))
  rw [funext hq, funext he]

/-- WHAT POINT `t` WRITES BACK is block `t`, cut at the result's last column, of the array of similarities. -/
theorem sim_flushed (c : Dev nD) (t : Fin cfg1.N) :
    (dat1 V c).flushed 2 t = ((cfg1.win 2).blk t).view.read (Elt Ideal) (simArr V c) := by
  show (cfg1.win 2).cut (grid1.coords t) ((dat1 V c).after 2 t) = _
  rw [dat1_after2, simOut_eq]
  funext y
  exact sim_point V c t y

/-- An index of the result is in point `t`'s cut block iff each coordinate is in the cut block's range on its axis. -/
theorem sim_mem_blk (t : Fin cfg1.N) (i : S512x100000.Idx) :
    i ∈ ((cfg1.win 2).blk t).view.set ↔ ∀ a : Fin 2, win1_2.index t a * S512x4096.size a ≤ (i a).val
      ∧ (i a).val < win1_2.index t a * S512x4096.size a + win1_2.xsize (grid1.coords t) a := by
  show i ∈ ((View.whole main_v3).slice (win1_2.rect t)).set ↔ _
  rw [View.set_slice_whole, Rect.mem_set_unit]
  exact Iff.rfl

/-- The 25 cut blocks tile the result: column `e` lies in the block of point `e / 4096`. -/
theorem sim_cover (i : S512x100000.Idx) :
    ∃ t : Fin cfg1.N, (cfg1.win 2).flush t = true ∧ i ∈ ((cfg1.win 2).blk t).view.set := by
  have hN : cfg1.N = 25 := N_1
  have hi0 : (i 0).val < 512 := (i 0).isLt
  have hi1 : (i 1).val < 100000 := (i 1).isLt
  obtain ⟨t, ht⟩ : ∃ t : Fin cfg1.N, t.val = (i 1).val / 4096 := ⟨⟨(i 1).val / 4096, by omega⟩, rfl⟩
  obtain ⟨ec, -, -, -, -, e20, e21⟩ := idx_facts1 t
  refine ⟨t, flush1_2 t, ?_⟩
  rw [sim_mem_blk]
  intro a
  match a with
  | ⟨0, _⟩ =>
    show win1_2.index t (0 : Fin 2) * 512 ≤ (i 0).val ∧ (i 0).val < win1_2.index t (0 : Fin 2) * 512 + win1_2.xsize (grid1.coords t) 0
    rw [e20, outX0]
    omega
  | ⟨1, _⟩ =>
    show win1_2.index t (1 : Fin 2) * 4096 ≤ (i 1).val ∧ (i 1).val < win1_2.index t (1 : Fin 2) * 4096 + win1_2.xsize (grid1.coords t) 1
    have hx := (outX1_lt_iff (grid1.coords t) ((i 1).val - t.val * 4096) (by omega)).mpr (by rw [ec]; omega)
    rw [e21]
    omega

/-- THE SIMILARITY KERNEL'S RESULT ARRAY after the region: the array of similarities. -/
theorem sim_final (c : Dev nD) : (dat1 (F := Ideal) V c).arrAt 2 cfg1.N = simArr V c :=
  (dat1 V c).arrAt_eq_of_cover 2 (simArr V c) (fun t _ => sim_flushed V c t) (sim_cover)

end Cert.KernelIdeal.Hand

end
-- ==== Proof.RefRead.lean ====
/-
  The reference's result, read at an index.

  The reference computes, on whole arrays, `q = tanh (x · Wᵀ + b)`, scales every row of `q` and every row of the
  entity table to unit length (the squares summed along the last axis from a zero start, the axis kept, the square
  root, the larger of it and the floor `ε`, a division), and multiplies: the result at `(bb, s, e')` is the inner
  product of the scaled projected row `(bb, s)` with the scaled entity row `e'`. Each stage is read at an index from
  its operands at an index; the composed index maps are the coordinate tuples one expects, and the zero the host's
  sum starts from is the extended real `0`, which the sum absorbs.
-/
import proofs.«133783_j66142496358617_2_alg».proof.Proof.Gen.ReferenceIdeal.Read
import Idealize.ShloMosaic.Lib.ValueIdx
import Idealize.ShloMosaic.PureOps.Ideal.Laws
import proofs.«133783_j66142496358617_2_alg».proof.Proof.RowSpec

noncomputable section

open scoped BigOperators

namespace Cert.KernelIdeal.RowMath

open Cert.ReferenceIdeal Cert.ReferenceIdeal.Read Idealize.ShloMosaic Idealize.ShloMosaic.ValueIdx

/-- The projection stage at `(bb, s, k)`: entry `k` of the projection of query row `(bb, s)`. The product reads
    `x` at `(bb, s, d)` and `W` at `(k, d)`; the bias, broadcast through `[1, 1, 256]`, reads `b` at `k`. -/
theorem ref_proj (x : (⟨S4x128x768, .f32⟩ : BufTy).Contents (Elt Ideal)) (W : (⟨S256x768, .f32⟩ : BufTy).Contents (Elt Ideal))
    (b : (⟨S256, .f32⟩ : BufTy).Contents (Elt Ideal)) (bb : Fin 4) (s : Fin 128) (k : Fin 256) :
    val_main_v4 (F := Ideal) x W b (ix3 bb s k)
      = proj (fun i => x (ix3 bb s i)) (fun e d => W (ix2 e d)) (fun e => b (ix1 e)) k := by
  have hl : ∀ d : Fin 768, lidx_main_v0 (ix3 bb s k) d = ix3 bb s d := fun d => funext fun a => by
    match a with | ⟨0, _⟩ => rfl | ⟨1, _⟩ => rfl | ⟨2, _⟩ => rfl
  have hr : ∀ d : Fin 768, ridx_main_v0 (ix3 bb s k) d = ix2 k d := fun d => funext fun a => by
    match a with | ⟨0, _⟩ => rfl | ⟨1, _⟩ => rfl
  have hb : idx_main_v1 (idx_main_v2 (ix3 bb s k)) = ix1 k := funext fun a => by
    match a with | ⟨0, _⟩ => rfl
  rw [val_main_v4_apply, val_main_v3_apply, val_main_v0_apply, val_main_v2_apply, val_main_v1_apply, hb]
  simp only [hl, hr]
  rfl

/-- The scaled projection stage at `(bb, s, k)`: entry `k` of the projected row `(bb, s)` scaled to unit length. The
    broadcast divisor reads the kept-axis column at `(bb, s, 0)`, that the row sum at `(bb, s)`, and the sum runs over
    the stage of squares at `(bb, s, k')`. -/
theorem ref_unit_proj (x : (⟨S4x128x768, .f32⟩ : BufTy).Contents (Elt Ideal)) (W : (⟨S256x768, .f32⟩ : BufTy).Contents (Elt Ideal))
    (b : (⟨S256, .f32⟩ : BufTy).Contents (Elt Ideal)) (bb : Fin 4) (s : Fin 128) (k : Fin 256) :
    val_main_v9 (F := Ideal) x W b (ix3 bb s k)
      = unit (proj (fun i => x (ix3 bb s i)) (fun e d => W (ix2 e d)) (fun e => b (ix1 e))) k := by
  have hi : ∀ k' : Fin 256, idx_main_call0_v1 (idx_main_call0_v2 (idx_main_v8 (ix3 bb s k))) k' = ix3 bb s k' :=
    fun k' => funext fun a => by
      match a with | ⟨0, _⟩ => rfl | ⟨1, _⟩ => rfl | ⟨2, _⟩ => rfl
  rw [val_main_v9_apply, val_main_v8_apply, val_main_v7_apply, val_main_v5_apply, val_main_call0_v2_apply,
    val_main_call0_v1_apply, val_main_v6_apply, val_main_cst_apply, val_main_call0_cst_apply]
  simp only [hi, val_main_call0_v0_apply, ref_proj]
  show Ideal.div _ (max (Ideal.sqrt (Ideal.ofBits .f32 0x00000000#32 + _)) eps) = Ideal.div _ (max (Ideal.sqrt _) eps)
  rw [Ideal.ofBits_zero_f32, zero_add]
  rfl

/-- The scaled entity stage at `(e', k)`: entry `k` of entity row `e'` scaled to unit length. -/
theorem ref_unit_ent (ent : (⟨S100000x256, .f32⟩ : BufTy).Contents (Elt Ideal)) (e' : Fin 100000) (k : Fin 256) :
    val_main_v14 (F := Ideal) ent (ix2 e' k) = unit (fun d => ent (ix2 e' d)) k := by
  have hi : ∀ k' : Fin 256, idx_main_call1_v1 (idx_main_call1_v2 (idx_main_v13 (ix2 e' k))) k' = ix2 e' k' :=
    fun k' => funext fun a => by
      match a with | ⟨0, _⟩ => rfl | ⟨1, _⟩ => rfl
  rw [val_main_v14_apply, val_main_v13_apply, val_main_v12_apply, val_main_v10_apply, val_main_call1_v2_apply,
    val_main_call1_v1_apply, val_main_v11_apply, val_main_cst_0_apply, val_main_call1_cst_apply]
  simp only [hi, val_main_call1_v0_apply]
  show Ideal.div _ (max (Ideal.sqrt (Ideal.ofBits .f32 0x00000000#32 + _)) eps) = Ideal.div _ (max (Ideal.sqrt _) eps)
  rw [Ideal.ofBits_zero_f32, zero_add]
  rfl

/-- THE REFERENCE'S RESULT AT `(bb, s, e')`: the inner product of the scaled projection of query row `(bb, s)` with
    entity row `e'` scaled to unit length. -/
theorem ref_apply (x : (⟨S4x128x768, .f32⟩ : BufTy).Contents (Elt Ideal)) (W : (⟨S256x768, .f32⟩ : BufTy).Contents (Elt Ideal))
    (b : (⟨S256, .f32⟩ : BufTy).Contents (Elt Ideal)) (ent : (⟨S100000x256, .f32⟩ : BufTy).Contents (Elt Ideal))
    (bb : Fin 4) (s : Fin 128) (e' : Fin 100000) :
    val_main_v15 (F := Ideal) x W b ent (ix3 bb s e')
      = sim (unit (proj (fun i => x (ix3 bb s i)) (fun e d => W (ix2 e d)) (fun e => b (ix1 e))))
          (unit (fun d => ent (ix2 e' d))) := by
  have hl : ∀ k : Fin 256, lidx_main_v15 (ix3 bb s e') k = ix3 bb s k := fun k => funext fun a => by
    match a with | ⟨0, _⟩ => rfl | ⟨1, _⟩ => rfl | ⟨2, _⟩ => rfl
  have hr : ∀ k : Fin 256, ridx_main_v15 (ix3 bb s e') k = ix2 e' k := fun k => funext fun a => by
    match a with | ⟨0, _⟩ => rfl | ⟨1, _⟩ => rfl
  rw [val_main_v15_apply]
  simp only [hl, hr, ref_unit_proj, ref_unit_ent]
  rfl

end Cert.KernelIdeal.RowMath

end
-- ==== Proof.LibMergeRows.lean ====
/-
  Merging the two leading axes of a rank-3 array into one, and splitting them again, read at an index.

  A row-major re-layout keeps every element's position. Position of `(b, n, j)` in `[A, B, K]` is
  `(b · B + n) · K + j`; position of `(r, j)` in `[R, K]` is `r · K + j`. So with `r = b · B + n` the cast of an
  `[A, B, K]` array to `[R, K]` reads at `(r, j)` the operand at `(b, n, j)`, and the cast back reads at `(b, n, j)`
  the operand at `(r, j)`.
-/
import Idealize.ShloMosaic.Lib.Pipeline.Value
import Idealize.ShloMosaic.Lib.ValueIdx

namespace Cert.Lib.MergeRows

open Idealize.ShloMosaic Idealize.ShloMosaic.ValueIdx

variable {α : Type}

/-- `[A, B, K]` cast to `[R, K]`: entry `(r, j)` with `r = b · B + n` is the operand's entry `(b, n, j)`. -/
theorem merge_apply {A B K R : ℕ} (x : (⟨3, ![A, B, K]⟩ : Shape).Idx → α)
    (h : (⟨3, ![A, B, K]⟩ : Shape).ShapeCasts ⟨2, ![R, K]⟩) (b : Fin A) (n : Fin B) (j : Fin K) (r : Fin R)
    (hr : r.val = b.val * B + n.val) : shapeCast ⟨2, ![R, K]⟩ x h (ix2 r j) = x (ix3 b n j) :=
  shapeCast_apply x h _ _ (by
    rw [Shape.rowMajor_val_three, Shape.rowMajor_val_two]
    show (b.val * B + n.val) * K + j.val = r.val * K + j.val
    rw [hr])

/-- `[R, K]` cast to `[A, B, K]`: entry `(b, n, j)` is the operand's entry `(r, j)` with `r = b · B + n`. -/
theorem split_apply {A B K R : ℕ} (x : (⟨2, ![R, K]⟩ : Shape).Idx → α)
    (h : (⟨2, ![R, K]⟩ : Shape).ShapeCasts ⟨3, ![A, B, K]⟩) (b : Fin A) (n : Fin B) (j : Fin K) (r : Fin R)
    (hr : r.val = b.val * B + n.val) : shapeCast ⟨3, ![A, B, K]⟩ x h (ix3 b n j) = x (ix2 r j) :=
  shapeCast_apply x h _ _ (by
    rw [Shape.rowMajor_val_three, Shape.rowMajor_val_two]
    show r.val * K + j.val = (b.val * B + n.val) * K + j.val
    rw [hr])

end Cert.Lib.MergeRows
-- ==== Proof.KernelIdeal.Bridge.lean ====
/-
  The kernel program's result over the extended reals, entry by entry, against the reference's. The trailing host
  reshape reads entry (b, s, e') of the result at entry (128·b + s, e') of the similarity region's array; that array
  holds the inner products of the rows of the projection region's array with the entity table's rows scaled to unit
  length; the projection region's array holds the projected rows of the flattened input, scaled to unit length; and
  the leading host reshapes read row 128·b + s of the flattened input at the input's row (b, s) and the bias row at
  the bias. The reference's last stage is the same expression of the same rows.
-/
import proofs.«133783_j66142496358617_2_alg».proof.Proof.KernelIdeal.Frame
import proofs.«133783_j66142496358617_2_alg».proof.Proof.KernelIdeal.Value0
import proofs.«133783_j66142496358617_2_alg».proof.Proof.KernelIdeal.Value1
import proofs.«133783_j66142496358617_2_alg».proof.Proof.RefRead
import proofs.«133783_j66142496358617_2_alg».proof.Proof.LibMergeRows
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx
variable (m : (ℓ : Loc nD τ sig) → Buf (Elt Ideal) ℓ)

/-- The flattened input as the projection region finds it: the host reshape of the input, so its row 128·b + s is
    the input's row (b, s). -/
theorem lead_x (c : Dev nD) : W1 m c (Proc.devRef .tc main_v0)
    = (shapeCast S512x768 (m ((c : Thread nD τ).loc main_arg0)) shapeCasts_S4x128x768_S512x768 : S512x768.Idx → Elt Ideal .f32) := by
  show StableHlo.after hostOps0 (W0 m c) (Proc.devRef .tc main_v0) = _
  after_results
  rfl

/-- The bias as the projection region finds it: laid as one row. -/
theorem lead_b (c : Dev nD) : W1 m c (Proc.devRef .tc main_v1)
    = (shapeCast S1x256 (m ((c : Thread nD τ).loc main_arg2)) shapeCasts_S256_S1x256 : S1x256.Idx → Elt Ideal .f32) := by
  show StableHlo.after hostOps0 (W0 m c) (Proc.devRef .tc main_v1) = _
  after_results
  rfl

/-- The program's result: the host reshape of what the similarity region leaves. -/
theorem tail_r (c : Dev nD) : W4 m c (Proc.devRef .tc main_v4)
    = (shapeCast S4x128x100000 (W3 m c (Proc.devRef .tc main_v3)) shapeCasts_S512x100000_S4x128x100000 : S4x128x100000.Idx → Elt Ideal .f32) := by
  show StableHlo.after hostOps2 (W3 m c) (Proc.devRef .tc main_v4) = _
  after_results
  rfl

theorem x_row (c : Dev nD) (bb : Fin 4) (s : Fin 128) (d : Fin 768) (r : Fin 512) (hr : r.val = bb.val * 128 + s.val) :
    W1 m c (Proc.devRef .tc main_v0) (ix2 r d) = m ((c : Thread nD τ).loc main_arg0) (ix3 bb s d) := by
  rw [lead_x]
  exact Cert.Lib.MergeRows.merge_apply _ _ bb s d r hr

theorem b_row (c : Dev nD) (e : Fin 256) :
    W1 m c (Proc.devRef .tc main_v1) (ix2 (0 : Fin 1) e) = m ((c : Thread nD τ).loc main_arg2) (ix1 e) := by
  rw [lead_b]
  exact shapeCast_a_1a_apply _ _ 0 e

theorem out_entry (c : Dev nD) (bb : Fin 4) (s : Fin 128) (e' : Fin 100000) (r : Fin 512) (hr : r.val = bb.val * 128 + s.val) :
    W4 m c (Proc.devRef .tc main_v4) (ix3 bb s e') = W3 m c (Proc.devRef .tc main_v3) (ix2 r e') := by
  rw [tail_r]
  exact Cert.Lib.MergeRows.split_apply _ _ bb s e' r hr

/-- THE BRIDGE. Entry (b, s, e') of the program's result is entry (128·b + s, e') of the similarity region's result:
    the inner product of row 128·b + s of the projection region's result — the projection of input row (b, s), scaled
    to unit length — with row e' of the entity table scaled to unit length. The reference computes the same number. -/
theorem result_eq  (c : Dev nD) :
    W4 (F := Ideal) m c (Proc.devRef .tc main_v4)
      = Cert.ReferenceIdeal.Read.val_main_v15 (F := Ideal) (m ((c.tc : Thread nD τ).loc main_arg0)) (m ((c.tc : Thread nD τ).loc main_arg1))
          (m ((c.tc : Thread nD τ).loc main_arg2)) (m ((c.tc : Thread nD τ).loc main_arg3)) := by
  funext j
  obtain ⟨bb, s, e', rfl⟩ : ∃ (bb : Fin 4) (s : Fin 128) (e' : Fin 100000), j = ix3 bb s e' := ⟨j 0, j 1, j 2, eq_ix3 j⟩
  have hs : s.val < 128 := s.isLt
  have hb : bb.val < 4 := bb.isLt
  have hx : (fun d' : Fin 768 => V1 m c main_v0 (ix2 (⟨bb.val * 128 + s.val, by omega⟩ : Fin 512) d'))
      = fun i => m ((c.tc : Thread nD τ).loc main_arg0) (ix3 bb s i) :=
    funext fun d' => x_row m c bb s d' ⟨bb.val * 128 + s.val, by omega⟩ rfl
  have hw : V1 m c main_arg1 = m ((c.tc : Thread nD τ).loc main_arg1) := W1_of m c main_arg1 (by decide)
  have hbias : (fun e : Fin 256 => V1 m c main_v1 (ix2 (0 : Fin 1) e)) = fun e => m ((c.tc : Thread nD τ).loc main_arg2) (ix1 e) :=
    funext (b_row m c)
  have hent : V2 m c main_arg3 = m ((c.tc : Thread nD τ).loc main_arg3) := W2_arg3 m c
  have hq : V2 m c main_v2 = projArr (V1 m) c := (W2_arr m c 3).trans (proj_final (V1 m) c)
  rw [RowMath.ref_apply, out_entry m c bb s e' ⟨bb.val * 128 + s.val, by omega⟩ rfl,
    show W3 m c (Proc.devRef .tc main_v3) = (dat1 (V2 m) c).arrAt 2 cfg1.N from W3_arr m c 2, sim_final]
  show RowMath.sim (fun d => V2 m c main_v2 (ix2 (⟨bb.val * 128 + s.val, by omega⟩ : Fin 512) d))
      (RowMath.unit (fun d => V2 m c main_arg3 (ix2 e' d))) = _
  rw [hq, hent]
  show RowMath.sim (fun d => RowMath.unit (RowMath.proj (fun d' => V1 m c main_v0 (ix2 (⟨bb.val * 128 + s.val, by omega⟩ : Fin 512) d'))
      (fun e d' => V1 m c main_arg1 (ix2 e d')) (fun e => V1 m c main_v1 (ix2 (0 : Fin 1) e))) d) _ = _
  rw [hx, hw, hbias]

end Cert.KernelIdeal.Hand

end
-- ==== Proof.lean ====
/-
  The certificate of an entity-disambiguation head: queries x[4,128,768] are projected by a weight matrix W[256,768]
  with a bias b[256] through tanh, every projected row and every row of an entity table[100000,256] is scaled to unit
  length (its norm floored at one fixed small word), and the result[4,128,100000] is every inner product of a scaled
  query row with a scaled entity row. The kernel program flattens the queries to 512 rows, runs a projection kernel
  over four blocks of 128 rows and a similarity kernel over 25 blocks of 4096 entity rows (the last block overhangs
  the table; the kernel zeroes the rows past its end before reading them, and the columns past the result's end are
  not written back), and reshapes the result. The reference computes the same with whole-array operations.

  The three frames: both kernel programs run as four segments (host reshapes, the two kernel regions, a host reshape),
  for any float instance (Proof/Kernel/, Proof/KernelIdeal/: the regions' proof data and body triples, the segments,
  the run); the reference's run is its generated run. The idealization rewrote nothing, so it preserves trivially.
  Over the extended reals the two idealized programs agree entry by entry: the kernels' blocks are blocks of one
  function of the arrays (Proof/KernelIdeal/Value0, Value1), each entry of which is, row by row, the same expression
  the reference's operations compose to (Proof/RowSpec, Payload0, Payload1, RefRead; Proof/KernelIdeal/Bridge). The two
  sides are the same sums in the same order: no algebraic law is needed, and the precondition is not used.
-/
import proofs.«133783_j66142496358617_2_alg».proof.Defs
import proofs.«133783_j66142496358617_2_alg».proof.Proof.Gen.Kernel
import proofs.«133783_j66142496358617_2_alg».proof.Proof.Gen.KernelIdeal
import proofs.«133783_j66142496358617_2_alg».proof.Proof.Gen.ReferenceIdeal
import proofs.«133783_j66142496358617_2_alg».proof.Proof.Gen.Pre_finite_inputs
import proofs.«133783_j66142496358617_2_alg».proof.Proof.Gen.ReferenceIdeal.Run
import proofs.«133783_j66142496358617_2_alg».proof.Proof.Kernel.Frame
import proofs.«133783_j66142496358617_2_alg».proof.Proof.KernelIdeal.Frame
import proofs.«133783_j66142496358617_2_alg».proof.Proof.KernelIdeal.Bridge
import Idealize.ShloMosaic.Adequacy
import Idealize.ShloMosaic.Init

noncomputable section

namespace Cert.Proof

open Idealize.ShloMosaic Idealize.ShloMosaic.TcCoe Idealize.SL.Sem

/-- The kernel program as printed runs to the end, faults nowhere and leaves its arguments as launched. -/
theorem frame_kernel : Cert.frame_Kernel := fun m ρ _ => Cert.Kernel.Hand.frame_all (F := Bits) m ρ

/-- So does its idealization. -/
theorem frame_kernelIdeal : Cert.frame_KernelIdeal := fun m ρ _ => Cert.KernelIdeal.Hand.frame_all (F := Ideal) m ρ

/-- The reference: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals the idealized kernel's result buffer ends at the last boundary's contents and the
    reference's at its operations' composed term of arguments that agree: one array (`result_eq`). -/
theorem algebraic : Cert.algebraic_KernelIdeal_ReferenceIdeal := by
  intro m ρ m' ρ' _ hagree
  refine ⟨fun c => Cert.KernelIdeal.Hand.W4 m c (Proc.devRef .tc Cert.KernelIdeal.main_v4), Cert.KernelIdeal.Hand.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, (hagree c).1, (hagree c).2.1, (hagree c).2.2.1, (hagree c).2.2.2]
  exact (Cert.KernelIdeal.Hand.result_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
